-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x325x8x24x64 : Shape := ⟨5, ![16, 325, 8, 24, 64]⟩
abbrev S16x325x8x24x24 : Shape := ⟨5, ![16, 325, 8, 24, 24]⟩
abbrev S_ : Shape := ⟨0, ![]⟩

class Facts : Prop where
  bcast_S_S16x325x8x24x64 : S_.BroadcastsInDim S16x325x8x24x64 (![] : Fin 0 → Fin S16x325x8x24x64.rank)
  reducesTo_S16x325x8x24x64_S_d0_1_2_3_4 : S16x325x8x24x64.ReducesTo [0, 1, 2, 3, 4] S_
  h_S_ : 0 < S_.numel
  bcast_S_S16x325x8x24x24 : S_.BroadcastsInDim S16x325x8x24x24 (![] : Fin 0 → Fin S16x325x8x24x24.rank)
  reducesTo_S16x325x8x24x24_S_d0_1_2_3_4 : S16x325x8x24x24.ReducesTo [0, 1, 2, 3, 4] S_

variable [Facts]

def fn_part1 {F : FTy → Type} [FloatOps F] (main_arg4 : FVec F S16x325x8x24x24 .f32) (main_v13 : IVec S_ 1) (main_v16 : IVec S16x325x8x24x24 1) : IVec S_ 1 :=
  let main_c_5 : IVec S_ 1 := constantI S_ 1 1#1
  let main_v17 : IVec S_ 1 := (fun x v => Host.reduce IntOp.andi x v reducesTo_S16x325x8x24x24_S_d0_1_2_3_4 h_S_) main_v16 main_c_5
  let main_v18 : IVec S_ 1 := andi main_v13 main_v17
  let main_v19 : FVec F S16x325x8x24x24 .f32 := Host.absf main_arg4
  let main_cst_6 : FVec F S_ .f32 := constant S_ .f32 0x7F800000#32
  let main_v20 : FVec F S16x325x8x24x24 .f32 := broadcastInDim S16x325x8x24x24 ![] bcast_S_S16x325x8x24x24 main_cst_6
  let main_v21 : IVec S16x325x8x24x24 1 := cmpf .olt main_v19 main_v20
  let main_c_7 : IVec S_ 1 := constantI S_ 1 1#1
  let main_v22 : IVec S_ 1 := (fun x v => Host.reduce IntOp.andi x v reducesTo_S16x325x8x24x24_S_d0_1_2_3_4 h_S_) main_v21 main_c_7
  let main_v23 : IVec S_ 1 := andi main_v18 main_v22
  main_v23

def fn {F : FTy → Type} [FloatOps F] (main_arg0 : FVec F S16x325x8x24x64 .f32) (main_arg1 : FVec F S16x325x8x24x64 .f32) (main_arg2 : FVec F S16x325x8x24x64 .f32) (main_arg3 : FVec F S16x325x8x24x24 .f32) (main_arg4 : FVec F S16x325x8x24x24 .f32) : IVec S_ 1 :=
  let main_v0 : FVec F S16x325x8x24x64 .f32 := Host.absf main_arg0
  let main_cst : FVec F S_ .f32 := constant S_ .f32 0x7F800000#32
  let main_v1 : FVec F S16x325x8x24x64 .f32 := broadcastInDim S16x325x8x24x64 ![] bcast_S_S16x325x8x24x64 main_cst
  let main_v2 : IVec S16x325x8x24x64 1 := cmpf .olt main_v0 main_v1
  let main_c : IVec S_ 1 := constantI S_ 1 1#1
  let main_v3 : IVec S_ 1 := (fun x v => Host.reduce IntOp.andi x v reducesTo_S16x325x8x24x64_S_d0_1_2_3_4 h_S_) main_v2 main_c
  let main_v4 : FVec F S16x325x8x24x64 .f32 := Host.absf main_arg1
  let main_cst_0 : FVec F S_ .f32 := constant S_ .f32 0x7F800000#32
  let main_v5 : FVec F S16x325x8x24x64 .f32 := broadcastInDim S16x325x8x24x64 ![] bcast_S_S16x325x8x24x64 main_cst_0
  let main_v6 : IVec S16x325x8x24x64 1 := cmpf .olt main_v4 main_v5
  let main_c_1 : IVec S_ 1 := constantI S_ 1 1#1
  let main_v7 : IVec S_ 1 := (fun x v => Host.reduce IntOp.andi x v reducesTo_S16x325x8x24x64_S_d0_1_2_3_4 h_S_) main_v6 main_c_1
  let main_v8 : IVec S_ 1 := andi main_v3 main_v7
  let main_v9 : FVec F S16x325x8x24x64 .f32 := Host.absf main_arg2
  let main_cst_2 : FVec F S_ .f32 := constant S_ .f32 0x7F800000#32
  let main_v10 : FVec F S16x325x8x24x64 .f32 := broadcastInDim S16x325x8x24x64 ![] bcast_S_S16x325x8x24x64 main_cst_2
  let main_v11 : IVec S16x325x8x24x64 1 := cmpf .olt main_v9 main_v10
  let main_c_3 : IVec S_ 1 := constantI S_ 1 1#1
  let main_v12 : IVec S_ 1 := (fun x v => Host.reduce IntOp.andi x v reducesTo_S16x325x8x24x64_S_d0_1_2_3_4 h_S_) main_v11 main_c_3
  let main_v13 : IVec S_ 1 := andi main_v8 main_v12
  let main_v14 : FVec F S16x325x8x24x24 .f32 := Host.absf main_arg3
  let main_cst_4 : FVec F S_ .f32 := constant S_ .f32 0x7F800000#32
  let main_v15 : FVec F S16x325x8x24x24 .f32 := broadcastInDim S16x325x8x24x24 ![] bcast_S_S16x325x8x24x24 main_cst_4
  let main_v16 : IVec S16x325x8x24x24 1 := cmpf .olt main_v14 main_v15
  fn_part1 (F := F) main_arg4 main_v13 main_v16
-- ==== Kernel.lean ====
abbrev S16x325x8x24x64 : Shape := ⟨5, ![16, 325, 8, 24, 64]⟩
abbrev S16x325x8x24x24 : Shape := ⟨5, ![16, 325, 8, 24, 24]⟩
abbrev S1x25x8x24x64 : Shape := ⟨5, ![1, 25, 8, 24, 64]⟩
abbrev S1x25x8x24x24 : Shape := ⟨5, ![1, 25, 8, 24, 24]⟩
abbrev S25x8x24x64 : Shape := ⟨4, ![25, 8, 24, 64]⟩
abbrev S200x24x64 : Shape := ⟨3, ![200, 24, 64]⟩
abbrev S25x8x24x24 : Shape := ⟨4, ![25, 8, 24, 24]⟩
abbrev S200x24x24 : Shape := ⟨3, ![200, 24, 24]⟩
abbrev S200x24 : Shape := ⟨2, ![200, 24]⟩
abbrev S200x1x24 : Shape := ⟨3, ![200, 1, 24]⟩

abbrev nBuf : Space → Nat
  | .hbm => 7
  | .vmem => 14
  | .smem => 0
  | _ => 0

abbrev bufTy : (tb : Table) → Fin (tcTables nBuf tb) → BufTy
  | .hbm, ⟨0, _⟩ => ⟨S16x325x8x24x64, .f32⟩
  | .hbm, ⟨1, _⟩ => ⟨S16x325x8x24x64, .f32⟩
  | .hbm, ⟨2, _⟩ => ⟨S16x325x8x24x64, .f32⟩
  | .hbm, ⟨3, _⟩ => ⟨S16x325x8x24x24, .f32⟩
  | .hbm, ⟨4, _⟩ => ⟨S16x325x8x24x24, .f32⟩
  | .hbm, ⟨5, _⟩ => ⟨S16x325x8x24x64, .f32⟩
  | .hbm, ⟨6, _⟩ => ⟨S16x325x8x24x24, .f32⟩
  | .local _ .vmem, ⟨0, _⟩ => ⟨S1x25x8x24x64, .f32⟩
  | .local _ .vmem, ⟨1, _⟩ => ⟨S1x25x8x24x64, .f32⟩
  | .local _ .vmem, ⟨2, _⟩ => ⟨S1x25x8x24x64, .f32⟩
  | .local _ .vmem, ⟨3, _⟩ => ⟨S1x25x8x24x64, .f32⟩
  | .local _ .vmem, ⟨4, _⟩ => ⟨S1x25x8x24x64, .f32⟩
  | .local _ .vmem, ⟨5, _⟩ => ⟨S1x25x8x24x64, .f32⟩
  | .local _ .vmem, ⟨6, _⟩ => ⟨S1x25x8x24x24, .f32⟩
  | .local _ .vmem, ⟨7, _⟩ => ⟨S1x25x8x24x24, .f32⟩
  | .local _ .vmem, ⟨8, _⟩ => ⟨S1x25x8x24x24, .f32⟩
  | .local _ .vmem, ⟨9, _⟩ => ⟨S1x25x8x24x24, .f32⟩
  | .local _ .vmem, ⟨10, _⟩ => ⟨S1x25x8x24x64, .f32⟩
  | .local _ .vmem, ⟨11, _⟩ => ⟨S1x25x8x24x64, .f32⟩
  | .local _ .vmem, ⟨12, _⟩ => ⟨S1x25x8x24x24, .f32⟩
  | .local _ .vmem, ⟨13, _⟩ => ⟨S1x25x8x24x24, .f32⟩
  | _, _ => ⟨S16x325x8x24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 13], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x25x8x24x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x8x24x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x25x8x24x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x25x8x24x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x25x8x24x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x25x8x24x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x25x8x24x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x25x8x24x64_S1x25x8x24x64_0_0_0_0_0 : ∀ a, (![0, 0, 0, 0, 0] : Fin 5 → Nat) a + S1x25x8x24x64.size a ≤ S1x25x8x24x64.size a
  h_S1x25x8x24x64 : 0 < S1x25x8x24x64.numel
  shapeCasts_S1x25x8x24x64_S25x8x24x64 : S1x25x8x24x64.ShapeCasts S25x8x24x64
  shapeCasts_S25x8x24x64_S200x24x64 : S25x8x24x64.ShapeCasts S200x24x64
  bitsLt_bf16_f32 : FTy.bits .bf16 < FTy.bits .f32
  inb_S1x25x8x24x24_S1x25x8x24x24_0_0_0_0_0 : ∀ a, (![0, 0, 0, 0, 0] : Fin 5 → Nat) a + S1x25x8x24x24.size a ≤ S1x25x8x24x24.size a
  h_S1x25x8x24x24 : 0 < S1x25x8x24x24.numel
  shapeCasts_S1x25x8x24x24_S25x8x24x24 : S1x25x8x24x24.ShapeCasts S25x8x24x24
  shapeCasts_S25x8x24x24_S200x24x24 : S25x8x24x24.ShapeCasts S200x24x24
  reduces_S200x24x24_S200x24 : S200x24x24.Reduces [1] S200x24
  shapeCasts_S200x24_S200x1x24 : S200x24.ShapeCasts S200x1x24
  broadcasts_S200x1x24_S200x24x24 : S200x1x24.Broadcasts S200x24x24
  shapeCasts_S200x24x24_S25x8x24x24 : S200x24x24.ShapeCasts S25x8x24x24
  shapeCasts_S25x8x24x24_S1x25x8x24x24 : S25x8x24x24.ShapeCasts S1x25x8x24x24
  shapeCasts_S200x24x64_S25x8x24x64 : S200x24x64.ShapeCasts S25x8x24x64
  shapeCasts_S25x8x24x64_S1x25x8x24x64 : S25x8x24x64.ShapeCasts S1x25x8x24x64
  dot_S200x24x64_S200x24x64_S200x24x24_2_2_1_1_0_0_wf : DotDims.WF S200x24x64 S200x24x64 S200x24x24 [2] [2] [1] [1] [0] [0]
  dot_S200x24x24_S200x24x64_S200x24x64_2_1_1_2_0_0_wf : DotDims.WF S200x24x24 S200x24x64 S200x24x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x8x24x64.size a ≤ S16x325x8x24x64.size a
  hwx0_0 : ∀ i : grid0.Coords, EltTy.bits .f32 = 32 ∨ (Rect.block (s := S16x325x8x24x64) S1x25x8x24x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x8x24x64.size a ≤ S16x325x8x24x64.size a
  hwx0_1 : ∀ i : grid0.Coords, EltTy.bits .f32 = 32 ∨ (Rect.block (s := S16x325x8x24x64) S1x25x8x24x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25x8x24x64.size a ≤ S16x325x8x24x64.size a
  hwx0_2 : ∀ i : grid0.Coords, EltTy.bits .f32 = 32 ∨ (Rect.block (s := S16x325x8x24x64) S1x25x8x24x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25x8x24x24.size a ≤ S16x325x8x24x24.size a
  hwx0_3 : ∀ i : grid0.Coords, EltTy.bits .f32 = 32 ∨ (Rect.block (s := S16x325x8x24x24) S1x25x8x24x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x25x8x24x24.size a ≤ S16x325x8x24x24.size a
  hwx0_4 : ∀ i : grid0.Coords, EltTy.bits .f32 = 32 ∨ (Rect.block (s := S16x325x8x24x24) S1x25x8x24x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x25x8x24x64.size a ≤ S16x325x8x24x64.size a
  hwx0_5 : ∀ i : grid0.Coords, EltTy.bits .f32 = 32 ∨ (Rect.block (s := S16x325x8x24x64) S1x25x8x24x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x25x8x24x24.size a ≤ S16x325x8x24x24.size a
  hwx0_6 : ∀ i : grid0.Coords, EltTy.bits .f32 = 32 ∨ (Rect.block (s := S16x325x8x24x24) S1x25x8x24x24.size (cc0_transform_6 i) (hinb0_6 i)).WholeWords (EltTy.packing .f32)

variable [Facts₀]

def dot_S200x24x64_S200x24x64_S200x24x24_2_2_1_1_0_0 : DotDims S200x24x64 S200x24x64 S200x24x24 where
  lhsContracting := [2]
  rhsContracting := [2]
  lhsNonContracting := [1]
  rhsNonContracting := [1]
  lhsBatch := [0]
  rhsBatch := [0]
  wf := dot_S200x24x64_S200x24x64_S200x24x24_2_2_1_1_0_0_wf
def dot_S200x24x24_S200x24x64_S200x24x64_2_1_1_2_0_0 : DotDims S200x24x24 S200x24x64 S200x24x64 where
  lhsContracting := [2]
  rhsContracting := [1]
  lhsNonContracting := [1]
  rhsNonContracting := [2]
  lhsBatch := [0]
  rhsBatch := [0]
  wf := dot_S200x24x24_S200x24x64_S200x24x64_2_1_1_2_0_0_wf

abbrev win0_0 : Pipeline.Window sig grid0 :=
  Pipeline.Window.ofSpec (Memref.whole main_arg0) S1x25x8x24x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x25x8x24x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x25x8x24x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x25x8x24x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x25x8x24x24.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x25x8x24x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x25x8x24x24.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x325x8x24x64 : Shape := ⟨5, ![16, 325, 8, 24, 64]⟩
abbrev S16x325x8x24x24 : Shape := ⟨5, ![16, 325, 8, 24, 24]⟩
abbrev S_ : Shape := ⟨0, ![]⟩
abbrev S16x325x8x24 : Shape := ⟨4, ![16, 325, 8, 24]⟩
abbrev S16x325x8x1x24 : Shape := ⟨5, ![16, 325, 8, 1, 24]⟩

abbrev nBuf : Space → Nat
  | .hbm => 31
  | .vmem => 0
  | .smem => 0
  | _ => 0

abbrev bufTy : (tb : Table) → Fin (tcTables nBuf tb) → BufTy
  | .hbm, ⟨0, _⟩ => ⟨S16x325x8x24x64, .f32⟩
  | .hbm, ⟨1, _⟩ => ⟨S16x325x8x24x64, .f32⟩
  | .hbm, ⟨2, _⟩ => ⟨S16x325x8x24x64, .f32⟩
  | .hbm, ⟨3, _⟩ => ⟨S16x325x8x24x24, .f32⟩
  | .hbm, ⟨4, _⟩ => ⟨S16x325x8x24x24, .f32⟩
  | .hbm, ⟨5, _⟩ => ⟨S16x325x8x24x24, .f32⟩
  | .hbm, ⟨6, _⟩ => ⟨S_, .f32⟩
  | .hbm, ⟨7, _⟩ => ⟨S16x325x8x24x24, .f32⟩
  | .hbm, ⟨8, _⟩ => ⟨S16x325x8x24x24, .f32⟩
  | .hbm, ⟨9, _⟩ => ⟨S16x325x8x24x24, .f32⟩
  | .hbm, ⟨10, _⟩ => ⟨S_, .f32⟩
  | .hbm, ⟨11, _⟩ => ⟨S16x325x8x24x24, .f32⟩
  | .hbm, ⟨12, _⟩ => ⟨S16x325x8x24x24, .i1⟩
  | .hbm, ⟨13, _⟩ => ⟨S_, .f32⟩
  | .hbm, ⟨14, _⟩ => ⟨S16x325x8x24x24, .f32⟩
  | .hbm, ⟨15, _⟩ => ⟨S16x325x8x24x24, .f32⟩
  | .hbm, ⟨16, _⟩ => ⟨S_, .f32⟩
  | .hbm, ⟨17, _⟩ => ⟨S16x325x8x24, .f32⟩
  | .hbm, ⟨18, _⟩ => ⟨S_, .f32⟩
  | .hbm, ⟨19, _⟩ => ⟨S16x325x8x24, .f32⟩
  | .hbm, ⟨20, _⟩ => ⟨S16x325x8x24, .f32⟩
  | .hbm, ⟨21, _⟩ => ⟨S16x325x8x1x24, .f32⟩
  | .hbm, ⟨22, _⟩ => ⟨S16x325x8x24x24, .f32⟩
  | .hbm, ⟨23, _⟩ => ⟨S16x325x8x24x24, .f32⟩
  | .hbm, ⟨24, _⟩ => ⟨S16x325x8x24x24, .f32⟩
  | .hbm, ⟨25, _⟩ => ⟨S_, .f32⟩
  | .hbm, ⟨26, _⟩ => ⟨S16x325x8x24, .f32⟩
  | .hbm, ⟨27, _⟩ => ⟨S16x325x8x1x24, .f32⟩
  | .hbm, ⟨28, _⟩ => ⟨S16x325x8x24x24, .f32⟩
  | .hbm, ⟨29, _⟩ => ⟨S16x325x8x24x24, .f32⟩
  | .hbm, ⟨30, _⟩ => ⟨S16x325x8x24x64, .f32⟩
  | _, _ => ⟨S16x325x8x24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_call0_v0 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S16x325x8x24x24 : S_.BroadcastsInDim S16x325x8x24x24 (![] : Fin 0 → Fin S16x325x8x24x24.rank)
  reducesTo_S16x325x8x24x24_S16x325x8x24_d3 : S16x325x8x24x24.ReducesTo [3] S16x325x8x24
  h_S_ : 0 < S_.numel
  bcast_S_S16x325x8x24 : S_.BroadcastsInDim S16x325x8x24 (![] : Fin 0 → Fin S16x325x8x24.rank)
  bcast_S16x325x8x24_S16x325x8x1x24_0_1_2_4 : S16x325x8x24.BroadcastsInDim S16x325x8x1x24 (![0, 1, 2, 4] : Fin 4 → Fin S16x325x8x1x24.rank)
  bcast_S16x325x8x1x24_S16x325x8x24x24_0_1_2_3_4 : S16x325x8x1x24.BroadcastsInDim S16x325x8x24x24 (![0, 1, 2, 3, 4] : Fin 5 → Fin S16x325x8x24x24.rank)
  dot_S16x325x8x24x64_S16x325x8x24x64_S16x325x8x24x24_4_4_3_3_012_012_wf : DotDims.WF S16x325x8x24x64 S16x325x8x24x64 S16x325x8x24x24 [4] [4] [3] [3] [0, 1, 2] [0, 1, 2]
  dot_S16x325x8x24x24_S16x325x8x24x64_S16x325x8x24x64_4_3_3_4_012_012_wf : DotDims.WF S16x325x8x24x24 S16x325x8x24x64 S16x325x8x24x64 [4] [3] [3] [4] [0, 1, 2] [0, 1, 2]

variable [Facts₀]

def dot_S16x325x8x24x64_S16x325x8x24x64_S16x325x8x24x24_4_4_3_3_012_012 : DotDims S16x325x8x24x64 S16x325x8x24x64 S16x325x8x24x24 where
  lhsContracting := [4]
  rhsContracting := [4]
  lhsNonContracting := [3]
  rhsNonContracting := [3]
  lhsBatch := [0, 1, 2]
  rhsBatch := [0, 1, 2]
  wf := dot_S16x325x8x24x64_S16x325x8x24x64_S16x325x8x24x24_4_4_3_3_012_012_wf
def dot_S16x325x8x24x24_S16x325x8x24x64_S16x325x8x24x64_4_3_3_4_012_012 : DotDims S16x325x8x24x24 S16x325x8x24x64 S16x325x8x24x64 where
  lhsContracting := [4]
  rhsContracting := [3]
  lhsNonContracting := [3]
  rhsNonContracting := [4]
  lhsBatch := [0, 1, 2]
  rhsBatch := [0, 1, 2]
  wf := dot_S16x325x8x24x24_S16x325x8x24x64_S16x325x8x24x64_4_3_3_4_012_012_wf

class Facts : Prop extends Facts₀ where

variable [Facts]
-- ==== Proof.Spec.lean ====
/-
  One attention head over the extended reals, and the two result arrays built head by head.

  A head has query, key and value matrices of 24 rows and 64 columns, and a mask and a residual
  matrix of 24 by 24. The score of query row i against key row j is the inner product of the two
  rows times 1/8 plus the residual entry, replaced by the constant -1e9 where the mask entry
  exceeds 1/2. The softmax normalises each COLUMN j of the score matrix (it runs over the query
  index i): the column's maximum is subtracted, the exponential taken, and each entry divided by
  the column's sum. The context row i is the weight row i applied to the value matrix.

  The two result arrays of shape [16, 325, 8, 24, 24] and [16, 325, 8, 24, 64] hold, at
  (b, n, h, i, j), the score and the context of head (b, n, h), whose matrices are the slabs
  (b, n, h, ·, ·) of the five argument arrays.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## One head -/

/-- The masked, scaled score of query row `i` against key row `j`. -/
def score (q k : Fin 24 → Fin 64 → EReal) (mk rs : Fin 24 → Fin 24 → EReal) (i j : Fin 24) : EReal :=
  Scalar.select (Ideal.cmp .ogt (mk i j) (Ideal.ofBits .f32 0x3F000000#32)) (Ideal.ofBits .f32 0xCE6E6B28#32)
    ((∑ d : Fin 64, q i d * k j d) * Ideal.ofBits .f32 0x3E000000#32 + rs i j)

/-- The maximum of column `j` of a 24 by 24 matrix, folded from the pattern of minus infinity. -/
def colMax (s : Fin 24 → Fin 24 → EReal) (j : Fin 24) : EReal :=
  (Finset.univ : Finset (Fin 24)).fold max (Ideal.ofBits .f32 0xFF800000#32) (fun i => s i j)

/-- The exponential of an entry less its column's maximum. -/
def expo (s : Fin 24 → Fin 24 → EReal) (i j : Fin 24) : EReal := Ideal.exp (s i j - colMax s j)

/-- The sum of column `j` of the exponentials. -/
def colSum (s : Fin 24 → Fin 24 → EReal) (j : Fin 24) : EReal := ∑ i : Fin 24, expo s i j

/-- The softmax weight: the exponential over its column's sum. -/
def weight (s : Fin 24 → Fin 24 → EReal) (i j : Fin 24) : EReal := Ideal.div (expo s i j) (colSum s j)

/-- Row `i` of the weights applied to the value matrix, at column `e`. -/
def context (s : Fin 24 → Fin 24 → EReal) (v : Fin 24 → Fin 64 → EReal) (i : Fin 24) (e : Fin 64) : EReal :=
  ∑ j : Fin 24, weight s i j * v j e

/-! ## The arrays, head by head -/

/-- The 24 by 64 matrix of head `(b, n, h)` in an array of shape [16, 325, 8, 24, 64]. -/
def slabW (X : (⟨5, ![16, 325, 8, 24, 64]⟩ : Shape).Idx → EReal) (b : Fin 16) (n : Fin 325) (h : Fin 8) :
    Fin 24 → Fin 64 → EReal := fun i d => X (ix5 b n h i d)

/-- The 24 by 24 matrix of head `(b, n, h)` in an array of shape [16, 325, 8, 24, 24]. -/
def slabN (X : (⟨5, ![16, 325, 8, 24, 24]⟩ : Shape).Idx → EReal) (b : Fin 16) (n : Fin 325) (h : Fin 8) :
    Fin 24 → Fin 24 → EReal := fun i j => X (ix5 b n h i j)

/-- The score array: at `(b, n, h, i, j)` the score of head `(b, n, h)` at `(i, j)`. -/
def scoresAt (Q K : (⟨5, ![16, 325, 8, 24, 64]⟩ : Shape).Idx → EReal)
    (M R : (⟨5, ![16, 325, 8, 24, 24]⟩ : Shape).Idx → EReal) :
    (⟨5, ![16, 325, 8, 24, 24]⟩ : Shape).Idx → EReal := fun x =>
  score (slabW Q (x 0) (x 1) (x 2)) (slabW K (x 0) (x 1) (x 2)) (slabN M (x 0) (x 1) (x 2)) (slabN R (x 0) (x 1) (x 2))
    (x 3) (x 4)

/-- The context array: at `(b, n, h, i, e)` the context of head `(b, n, h)` at `(i, e)`. -/
def contextAt (Q K V : (⟨5, ![16, 325, 8, 24, 64]⟩ : Shape).Idx → EReal)
    (M R : (⟨5, ![16, 325, 8, 24, 24]⟩ : Shape).Idx → EReal) :
    (⟨5, ![16, 325, 8, 24, 64]⟩ : Shape).Idx → EReal := fun x =>
  context (score (slabW Q (x 0) (x 1) (x 2)) (slabW K (x 0) (x 1) (x 2)) (slabN M (x 0) (x 1) (x 2))
      (slabN R (x 0) (x 1) (x 2)))
    (slabW V (x 0) (x 1) (x 2)) (x 3) (x 4)

/-! ## A block: 25 consecutive positions of the second axis, 200 heads -/

/-- The place of head `(n, h)` among a block's 200 heads, counted row-major. -/
def headOf (n : Fin 25) (h : Fin 8) : Fin 200 :=
  ⟨n.val * 8 + h.val, by have := n.isLt; have := h.isLt; omega⟩

/-- The 24 by 64 matrix of head `(n, h)` in a block of shape [1, 25, 8, 24, 64]. -/
def blkW (P : (⟨5, ![1, 25, 8, 24, 64]⟩ : Shape).Idx → EReal) (n : Fin 25) (h : Fin 8) :
    Fin 24 → Fin 64 → EReal := fun i d => P (ix5 (0 : Fin 1) n h i d)

/-- The 24 by 24 matrix of head `(n, h)` in a block of shape [1, 25, 8, 24, 24]. -/
def blkN (P : (⟨5, ![1, 25, 8, 24, 24]⟩ : Shape).Idx → EReal) (n : Fin 25) (h : Fin 8) :
    Fin 24 → Fin 24 → EReal := fun i j => P (ix5 (0 : Fin 1) n h i j)

/-- The maximum with the fold's own starting value changes nothing: the fold is already above it. -/
theorem max_init_colMax (s : Fin 24 → Fin 24 → EReal) (j : Fin 24) :
    max (Ideal.ofBits .f32 0xFF800000#32) (colMax s j) = colMax s j :=
  max_eq_right ((Finset.le_fold_max _).mpr (Or.inl le_rfl))

end Cert.Attn

end
-- ==== Proof.RefRead.lean ====
/-
  The reference program's two results are the score array and the context array of the specification.

  The reference computes all heads at once on the five-dimensional arrays: a batched product over the
  last axis, the scale, the residual, the masked replacement; then over the fourth axis (the query index)
  the maximum, the exponential of the difference, the sum and the quotient; and a batched product with the
  values. Read at (b, n, h, i, j) each stage only touches the slabs (b, n, h, ·, ·), so the results are the
  head-by-head functions.
-/
import proofs.«172661_j17145509446375_2_alg».proof.Proof.Gen.ReferenceIdeal.Read
import proofs.«172661_j17145509446375_2_alg».proof.Proof.Spec
import Idealize.ShloMosaic.Lib.Pipeline.Value
import Idealize.ShloMosaic.Lib.ValueIdx
import Idealize.ShloMosaic.PureOps.Ideal.Laws

noncomputable section

open scoped BigOperators

namespace Cert.Attn.Ref

open Cert.ReferenceIdeal Cert.ReferenceIdeal.Read Idealize.ShloMosaic Idealize.ShloMosaic.ValueIdx Cert.Attn

/-! ## The index functions of the stages, at an index given by its coordinates -/

/-- The first product reads its left operand, over result index (b, n, h, i, j) and contraction coordinate d, at (b, n, h, i, d). -/
theorem lidx_v0 (b : Fin 16) (n : Fin 325) (h : Fin 8) (i j : Fin 24) (d : Fin 64) :
    lidx_main_v0 (ix5 b n h i j) d = ix5 b n h i d :=
  funext fun a => Fin.ext (by
    match a with | ⟨0, _⟩ => rfl | ⟨1, _⟩ => rfl | ⟨2, _⟩ => rfl | ⟨3, _⟩ => rfl | ⟨4, _⟩ => rfl)

/-- … and its right operand at (b, n, h, j, d). -/
theorem ridx_v0 (b : Fin 16) (n : Fin 325) (h : Fin 8) (i j : Fin 24) (d : Fin 64) :
    ridx_main_v0 (ix5 b n h i j) d = ix5 b n h j d :=
  funext fun a => Fin.ext (by
    match a with | ⟨0, _⟩ => rfl | ⟨1, _⟩ => rfl | ⟨2, _⟩ => rfl | ⟨3, _⟩ => rfl | ⟨4, _⟩ => rfl)

/-- The two broadcasts of a column statistic read it, over (b, n, h, i, j), at (b, n, h, j): the maximum's. -/
theorem idx_v10_v11 (b : Fin 16) (n : Fin 325) (h : Fin 8) (i j : Fin 24) :
    idx_main_v10 (idx_main_v11 (ix5 b n h i j)) = ix4 b n h j :=
  funext fun a => Fin.ext (by
    match a with | ⟨0, _⟩ => rfl | ⟨1, _⟩ => rfl | ⟨2, _⟩ => rfl | ⟨3, _⟩ => rfl)

/-- … and the sum's. -/
theorem idx_v15_v16 (b : Fin 16) (n : Fin 325) (h : Fin 8) (i j : Fin 24) :
    idx_main_v15 (idx_main_v16 (ix5 b n h i j)) = ix4 b n h j :=
  funext fun a => Fin.ext (by
    match a with | ⟨0, _⟩ => rfl | ⟨1, _⟩ => rfl | ⟨2, _⟩ => rfl | ⟨3, _⟩ => rfl)

/-- The sum over the query index reads, over (b, n, h, j) and coordinate i, at (b, n, h, i, j). -/
theorem idx_v14 (b : Fin 16) (n : Fin 325) (h : Fin 8) (j : Fin 24) (i : Fin 24) :
    idx_main_v14 (ix4 b n h j) i = ix5 b n h i j :=
  funext fun a => Fin.ext (by
    match a with | ⟨0, _⟩ => rfl | ⟨1, _⟩ => rfl | ⟨2, _⟩ => rfl | ⟨3, _⟩ => rfl | ⟨4, _⟩ => rfl)

/-- The second product reads the weights, over (b, n, h, i, e) and contraction coordinate j, at (b, n, h, i, j). -/
theorem lidx_v18 (b : Fin 16) (n : Fin 325) (h : Fin 8) (i : Fin 24) (e : Fin 64) (j : Fin 24) :
    lidx_main_v18 (ix5 b n h i e) j = ix5 b n h i j :=
  funext fun a => Fin.ext (by
    match a with | ⟨0, _⟩ => rfl | ⟨1, _⟩ => rfl | ⟨2, _⟩ => rfl | ⟨3, _⟩ => rfl | ⟨4, _⟩ => rfl)

/-- … and the values at (b, n, h, j, e). -/
theorem ridx_v18 (b : Fin 16) (n : Fin 325) (h : Fin 8) (i : Fin 24) (e : Fin 64) (j : Fin 24) :
    ridx_main_v18 (ix5 b n h i e) j = ix5 b n h j e :=
  funext fun a => Fin.ext (by
    match a with | ⟨0, _⟩ => rfl | ⟨1, _⟩ => rfl | ⟨2, _⟩ => rfl | ⟨3, _⟩ => rfl | ⟨4, _⟩ => rfl)

/-- Reducing the fourth axis: the source index over (b, n, h, j) with coordinate k on that axis is (b, n, h, k, j). -/
theorem lift_axis3 (hR : S16x325x8x24x24.Reduces [3] S16x325x8x24) (b : Fin 16) (n : Fin 325) (h : Fin 8) (j : Fin 24)
    (k : Fin (S16x325x8x24x24.size 3)) :
    hR.lift (ix4 b n h j) k = ix5 b n h (⟨k.val, k.isLt⟩ : Fin 24) j :=
  funext fun a => Fin.ext (by
    match a with | ⟨0, _⟩ => rfl | ⟨1, _⟩ => rfl | ⟨2, _⟩ => rfl | ⟨3, _⟩ => rfl | ⟨4, _⟩ => rfl)

/-! ## The stages at an index -/

section
variable (x0 x1 x2 : (⟨S16x325x8x24x64, .f32⟩ : BufTy).Contents (Elt Ideal))
  (x3 x4 : (⟨S16x325x8x24x24, .f32⟩ : BufTy).Contents (Elt Ideal))

/-- The head's score matrix, from the slabs of the four arrays the score reads. -/
abbrev headScore (b : Fin 16) (n : Fin 325) (h : Fin 8) : Fin 24 → Fin 24 → EReal :=
  score (slabW x0 b n h) (slabW x1 b n h) (slabN x3 b n h) (slabN x4 b n h)

/-- The batched product of queries and keys at (b, n, h, i, j) is the inner product of the head's rows i and j. -/
theorem v0_apply (b : Fin 16) (n : Fin 325) (h : Fin 8) (i j : Fin 24) :
    val_main_v0 (F := Ideal) x0 x1 (ix5 b n h i j) = ∑ d : Fin 64, slabW x0 b n h i d * slabW x1 b n h j d :=
  (val_main_v0_apply x0 x1 (ix5 b n h i j)).trans
    (Finset.sum_congr rfl fun d _ =>
      congrArg₂ (· * ·) (congrArg x0 (lidx_v0 b n h i j d)) (congrArg x1 (ridx_v0 b n h i j d)))

/-- The masked, scaled product at (b, n, h, i, j) is the head's score at (i, j). -/
theorem v6_apply (b : Fin 16) (n : Fin 325) (h : Fin 8) (i j : Fin 24) :
    val_main_v6 (F := Ideal) x0 x1 x3 x4 (ix5 b n h i j) = headScore x0 x1 x3 x4 b n h i j := by
  rw [val_main_v6_apply, val_main_v5_apply, val_main_v4_apply, val_main_cst_0_apply, val_main_call0_v0_apply,
    val_main_cst_1_apply, val_main_v3_apply, val_main_v2_apply, val_main_v1_apply, val_main_cst_apply, v0_apply]
  rfl

end

section
variable (x0 x1 x2 : (⟨S16x325x8x24x64, .f32⟩ : BufTy).Contents (Elt Ideal))
  (x3 x4 : (⟨S16x325x8x24x24, .f32⟩ : BufTy).Contents (Elt Ideal))

/-- The maximum over the query index, at (b, n, h, j), is the maximum of column j of the head's scores. -/
theorem v7_apply (b : Fin 16) (n : Fin 325) (h : Fin 8) (j : Fin 24) :
    val_main_v7 (F := Ideal) x0 x1 x3 x4 (ix4 b n h j) = colMax (headScore x0 x1 x3 x4 b n h) j := by
  have hR : S16x325x8x24x24.Reduces [3] S16x325x8x24 := by decide
  unfold val_main_v7
  refine (Host.reduce_eq_fold_single FloatOps.maximumf _ _ _ hR _ (ix4 b n h j)).trans ?_
  unfold colMax
  refine congrArg (fun f => (Finset.univ : Finset (Fin 24)).fold max (Ideal.ofBits .f32 0xFF800000#32) f)
    (funext fun k => ?_)
  exact (congrArg (val_main_v6 (F := Ideal) x0 x1 x3 x4) (lift_axis3 hR b n h j k)).trans
    (v6_apply x0 x1 x3 x4 b n h k j)

/-- The second maximum, with the starting value again, changes nothing. -/
theorem v9_apply (b : Fin 16) (n : Fin 325) (h : Fin 8) (j : Fin 24) :
    val_main_v9 (F := Ideal) x0 x1 x3 x4 (ix4 b n h j) = colMax (headScore x0 x1 x3 x4 b n h) j := by
  rw [val_main_v9_apply, val_main_v8_apply, val_main_cst_3_apply, v7_apply]
  exact max_init_colMax _ j

/-- The exponential of the score less its column's maximum. -/
theorem v13_apply (b : Fin 16) (n : Fin 325) (h : Fin 8) (i j : Fin 24) :
    val_main_v13 (F := Ideal) x0 x1 x3 x4 (ix5 b n h i j) = expo (headScore x0 x1 x3 x4 b n h) i j := by
  rw [val_main_v13_apply, val_main_v12_apply, val_main_v11_apply, val_main_v10_apply, idx_v10_v11, v9_apply, v6_apply]
  rfl

/-- The sum over the query index, from zero, is the column's sum of exponentials. -/
theorem v14_apply (b : Fin 16) (n : Fin 325) (h : Fin 8) (j : Fin 24) :
    val_main_v14 (F := Ideal) x0 x1 x3 x4 (ix4 b n h j) = colSum (headScore x0 x1 x3 x4 b n h) j := by
  rw [val_main_v14_apply, val_main_cst_4_apply]
  refine (congrArg (· + _) Ideal.ofBits_zero_f32).trans ((zero_add _).trans ?_)
  unfold colSum
  exact Finset.sum_congr rfl fun i _ =>
    (congrArg (val_main_v13 (F := Ideal) x0 x1 x3 x4) (idx_v14 b n h j i)).trans (v13_apply x0 x1 x3 x4 b n h i j)

/-- The quotient is the softmax weight. -/
theorem v17_apply (b : Fin 16) (n : Fin 325) (h : Fin 8) (i j : Fin 24) :
    val_main_v17 (F := Ideal) x0 x1 x3 x4 (ix5 b n h i j) = weight (headScore x0 x1 x3 x4 b n h) i j := by
  rw [val_main_v17_apply, val_main_v16_apply, val_main_v15_apply, idx_v15_v16, v14_apply, v13_apply]
  rfl

/-- The batched product of weights and values at (b, n, h, i, e) is the head's context at (i, e). -/
theorem v18_apply (b : Fin 16) (n : Fin 325) (h : Fin 8) (i : Fin 24) (e : Fin 64) :
    val_main_v18 (F := Ideal) x0 x1 x2 x3 x4 (ix5 b n h i e)
      = context (headScore x0 x1 x3 x4 b n h) (slabW x2 b n h) i e := by
  refine (val_main_v18_apply x0 x1 x2 x3 x4 (ix5 b n h i e)).trans ?_
  unfold context
  exact Finset.sum_congr rfl fun j _ =>
    congrArg₂ (· * ·)
      ((congrArg (val_main_v17 (F := Ideal) x0 x1 x3 x4) (lidx_v18 b n h i e j)).trans (v17_apply x0 x1 x3 x4 b n h i j))
      (congrArg x2 (ridx_v18 b n h i e j))

end

/-! ## The two results -/

/-- The reference's returned score array is the specification's. -/
theorem ref_scores (x0 x1 : (⟨S16x325x8x24x64, .f32⟩ : BufTy).Contents (Elt Ideal))
    (x3 x4 : (⟨S16x325x8x24x24, .f32⟩ : BufTy).Contents (Elt Ideal)) :
    val_main_v6 (F := Ideal) x0 x1 x3 x4 = scoresAt x0 x1 x3 x4 := by
  funext x
  obtain ⟨b, n, h, i, j, rfl⟩ : ∃ (b : Fin 16) (n : Fin 325) (h : Fin 8) (i j : Fin 24), x = ix5 b n h i j :=
    ⟨x 0, x 1, x 2, x 3, x 4, eq_ix5 x⟩
  exact v6_apply x0 x1 x3 x4 b n h i j

/-- The reference's returned context array is the specification's. -/
theorem ref_context (x0 x1 x2 : (⟨S16x325x8x24x64, .f32⟩ : BufTy).Contents (Elt Ideal))
    (x3 x4 : (⟨S16x325x8x24x24, .f32⟩ : BufTy).Contents (Elt Ideal)) :
    val_main_v18 (F := Ideal) x0 x1 x2 x3 x4 = contextAt x0 x1 x2 x3 x4 := by
  funext x
  obtain ⟨b, n, h, i, e, rfl⟩ : ∃ (b : Fin 16) (n : Fin 325) (h : Fin 8) (i : Fin 24) (e : Fin 64), x = ix5 b n h i e :=
    ⟨x 0, x 1, x 2, x 3, x 4, eq_ix5 x⟩
  exact v18_apply x0 x1 x2 x3 x4 b n h i e

end Cert.Attn.Ref

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.BodyScore.lean ====
/-
  The kernel body's score payload, read at an index.

  The body folds a block's 25 positions and 8 heads into one batch axis of 200, multiplies each head's
  query matrix by the transpose of its key matrix into a zero accumulator, scales by 1/8, adds the
  residual and replaces masked entries. Read at batch index 8 n + h and entry (i, j) this is the score
  of head (n, h) of the block at (i, j).
-/
import proofs.«172661_j17145509446375_2_alg».proof.Proof.Gen.KernelIdeal.Skeleton
import proofs.«172661_j17145509446375_2_alg».proof.Proof.Spec
import Idealize.ShloMosaic.Lib.Pipeline.Value
import Idealize.ShloMosaic.Lib.ValueIdx
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ### Folding positions and heads into one axis

A block of shape [1, 25, 8, 24, c] is cast to [25, 8, 24, c] and then to [200, 24, c]. Both casts keep the
row-major position, so batch index `8 n + h` of the result holds the matrix of head `(n, h)`:
`((8 n + h) · 24 + i) · c + d = (((0 · 25 + n) · 8 + h) · 24 + i) · c + d`. -/

/-- Folding positions and heads into one axis: the 64-wide block read at batch index `8 n + h`. -/
theorem cast_wide {α : Type} (P : S1x25x8x24x64.Idx → α) (n : Fin 25) (h : Fin 8) (i : Fin 24) (d : Fin 64) :
    shapeCast S200x24x64 (shapeCast S25x8x24x64 P shapeCasts_S1x25x8x24x64_S25x8x24x64)
        shapeCasts_S25x8x24x64_S200x24x64 (ix3 (headOf n h) i d)
      = P (ix5 (0 : Fin 1) n h i d) := by
  refine (shapeCast_apply _ _ (ix3 (headOf n h) i d) (ix4 n h i d) ?_).trans ?_
  · rw [Shape.rowMajor_val_four, Shape.rowMajor_val_three]
    show ((n.val * 8 + h.val) * 24 + i.val) * 64 + d.val = ((n.val * 8 + h.val) * 24 + i.val) * 64 + d.val
    rfl
  · refine shapeCast_apply _ _ (ix4 n h i d) (ix5 (0 : Fin 1) n h i d) ?_
    rw [Shape.rowMajor_val_five, Shape.rowMajor_val_four]
    show (((0 * 25 + n.val) * 8 + h.val) * 24 + i.val) * 64 + d.val = ((n.val * 8 + h.val) * 24 + i.val) * 64 + d.val
    rw [Nat.zero_mul, Nat.zero_add]

/-- The same for a 24-wide block. -/
theorem cast_narrow {α : Type} (P : S1x25x8x24x24.Idx → α) (n : Fin 25) (h : Fin 8) (i j : Fin 24) :
    shapeCast S200x24x24 (shapeCast S25x8x24x24 P shapeCasts_S1x25x8x24x24_S25x8x24x24)
        shapeCasts_S25x8x24x24_S200x24x24 (ix3 (headOf n h) i j)
      = P (ix5 (0 : Fin 1) n h i j) := by
  refine (shapeCast_apply _ _ (ix3 (headOf n h) i j) (ix4 n h i j) ?_).trans ?_
  · rw [Shape.rowMajor_val_four, Shape.rowMajor_val_three]
    show ((n.val * 8 + h.val) * 24 + i.val) * 24 + j.val = ((n.val * 8 + h.val) * 24 + i.val) * 24 + j.val
    rfl
  · refine shapeCast_apply _ _ (ix4 n h i j) (ix5 (0 : Fin 1) n h i j) ?_
    rw [Shape.rowMajor_val_five, Shape.rowMajor_val_four]
    show (((0 * 25 + n.val) * 8 + h.val) * 24 + i.val) * 24 + j.val = ((n.val * 8 + h.val) * 24 + i.val) * 24 + j.val
    rw [Nat.zero_mul, Nat.zero_add]

/-! ### The product's operand indices

At result index `x = (B, i, j)` and contraction position `q` the left operand is read at `(B, i, q)` and the
right operand at `(B, j, q)`: axis 0 is the batch axis of both, axis 1 the free axis, axis 2 the contracted one. -/

theorem lhs_0 (x : S200x24x24.Idx) (q : dot_S200x24x64_S200x24x64_S200x24x24_2_2_1_1_0_0.contr.Idx) :
    (dot_S200x24x64_S200x24x64_S200x24x24_2_2_1_1_0_0.lhsIdx x q 0).val = (x 0).val := by
  unfold DotDims.lhsIdx
  rw [dif_pos (show (0 : Fin S200x24x64.rank) ∈ dot_S200x24x64_S200x24x64_S200x24x24_2_2_1_1_0_0.lhsBatch by decide)]
  rfl

theorem lhs_1 (x : S200x24x24.Idx) (q : dot_S200x24x64_S200x24x64_S200x24x24_2_2_1_1_0_0.contr.Idx) :
    (dot_S200x24x64_S200x24x64_S200x24x24_2_2_1_1_0_0.lhsIdx x q 1).val = (x 1).val := by
  unfold DotDims.lhsIdx
  rw [dif_neg (show ¬(1 : Fin S200x24x64.rank) ∈ dot_S200x24x64_S200x24x64_S200x24x24_2_2_1_1_0_0.lhsBatch by decide),
    dif_pos (show (1 : Fin S200x24x64.rank) ∈ dot_S200x24x64_S200x24x64_S200x24x24_2_2_1_1_0_0.lhsNonContracting by decide)]
  rfl

theorem lhs_2 (x : S200x24x24.Idx) (q : dot_S200x24x64_S200x24x64_S200x24x24_2_2_1_1_0_0.contr.Idx) :
    (dot_S200x24x64_S200x24x64_S200x24x24_2_2_1_1_0_0.lhsIdx x q 2).val = (q ⟨0, by decide⟩).val :=
  dot_S200x24x64_S200x24x64_S200x24x24_2_2_1_1_0_0.lhsIdx_val_of_single rfl x q

theorem rhs_0 (x : S200x24x24.Idx) (q : dot_S200x24x64_S200x24x64_S200x24x24_2_2_1_1_0_0.contr.Idx) :
    (dot_S200x24x64_S200x24x64_S200x24x24_2_2_1_1_0_0.rhsIdx x q 0).val = (x 0).val := by
  unfold DotDims.rhsIdx
  rw [dif_pos (show (0 : Fin S200x24x64.rank) ∈ dot_S200x24x64_S200x24x64_S200x24x24_2_2_1_1_0_0.rhsBatch by decide)]
  rfl

theorem rhs_1 (x : S200x24x24.Idx) (q : dot_S200x24x64_S200x24x64_S200x24x24_2_2_1_1_0_0.contr.Idx) :
    (dot_S200x24x64_S200x24x64_S200x24x24_2_2_1_1_0_0.rhsIdx x q 1).val = (x 2).val := by
  unfold DotDims.rhsIdx
  rw [dif_neg (show ¬(1 : Fin S200x24x64.rank) ∈ dot_S200x24x64_S200x24x64_S200x24x24_2_2_1_1_0_0.rhsBatch by decide),
    dif_pos (show (1 : Fin S200x24x64.rank) ∈ dot_S200x24x64_S200x24x64_S200x24x24_2_2_1_1_0_0.rhsNonContracting by decide)]
  rfl

theorem rhs_2 (x : S200x24x24.Idx) (q : dot_S200x24x64_S200x24x64_S200x24x24_2_2_1_1_0_0.contr.Idx) :
    (dot_S200x24x64_S200x24x64_S200x24x24_2_2_1_1_0_0.rhsIdx x q 2).val = (q ⟨0, by decide⟩).val :=
  dot_S200x24x64_S200x24x64_S200x24x24_2_2_1_1_0_0.rhsIdx_val_of_single rfl x q

/-- The batched product `Q Kᵀ` into a zero accumulator, read at batch index `B` and entry `(i, j)`:
    the inner product of row `i` of the left operand's matrix `B` with row `j` of the right operand's. -/
theorem matmul_at (L R : FVec Ideal S200x24x64 .bf16) (B : Fin 200) (i j : Fin 24) :
    matmul dot_S200x24x64_S200x24x64_S200x24x24_2_2_1_1_0_0 none L R (constant (F := Ideal) S200x24x24 .f32 0x00000000#32) (ix3 B i j)
      = ∑ d : Fin 64, L (ix3 B i d) * R (ix3 B j d) := by
  refine (Ideal.matmul_constant_zero_apply dot_S200x24x64_S200x24x64_S200x24x24_2_2_1_1_0_0 none L R (ix3 B i j)).trans ?_
  rw [← Equiv.sum_comp (contrEquiv1 dot_S200x24x64_S200x24x64_S200x24x24_2_2_1_1_0_0 64 rfl rfl).symm]
  refine Finset.sum_congr rfl fun k _ => ?_
  have hk := contrEquiv1_symm_val dot_S200x24x64_S200x24x64_S200x24x24_2_2_1_1_0_0 64 rfl rfl k
  have el : dot_S200x24x64_S200x24x64_S200x24x24_2_2_1_1_0_0.lhsIdx (ix3 B i j) ((contrEquiv1 dot_S200x24x64_S200x24x64_S200x24x24_2_2_1_1_0_0 64 rfl rfl).symm k) = ix3 B i k :=
    funext fun a => Fin.ext (by
      match a with
      | ⟨0, _⟩ => exact lhs_0 _ _
      | ⟨1, _⟩ => exact lhs_1 _ _
      | ⟨2, _⟩ => exact (lhs_2 _ _).trans hk)
  have er : dot_S200x24x64_S200x24x64_S200x24x24_2_2_1_1_0_0.rhsIdx (ix3 B i j) ((contrEquiv1 dot_S200x24x64_S200x24x64_S200x24x24_2_2_1_1_0_0 64 rfl rfl).symm k) = ix3 B j k :=
    funext fun a => Fin.ext (by
      match a with
      | ⟨0, _⟩ => exact rhs_0 _ _
      | ⟨1, _⟩ => exact rhs_1 _ _
      | ⟨2, _⟩ => exact (rhs_2 _ _).trans hk)
  rw [el, er]

/-- The score payload at batch index `8 n + h`, entry `(i, j)`, is the score of the block's head `(n, h)`:
    `P0`, `P1` are the query and key blocks, `Pr` the residual block and `Pm` the mask block. -/
theorem pay4_apply (P0 P1 : Vec Ideal S1x25x8x24x64 .f32) (Pr Pm : Vec Ideal S1x25x8x24x24 .f32)
    (n : Fin 25) (h : Fin 8) (i j : Fin 24) :
    k0_pay4 (F := Ideal) P0 P1 Pr Pm (ix3 (headOf n h) i j)
      = score (blkW P0 n h) (blkW P1 n h) (blkN Pm n h) (blkN Pr n h) i j := by
  unfold k0_pay4
  -- The pointwise operations commute with reading at an index; the product is the row inner product; rounding
  -- to bf16 is the identity on the extended reals; each cast block is read at head `(n, h)`.
  simp only [select_apply, cmpf_apply, broadcast_apply, addf_apply, mulf_apply, matmul_at, truncf_apply,
    cast_wide, cast_narrow, Ideal.cmpf_def]
  -- What is left is the definition of the score, with each float literal the same bit pattern on both sides.
  rfl

end Cert.Attn.Body

end
-- ==== Proof.BodyContext.lean ====
/-
  The kernel body's context payload and its score store, read at an index.

  From the 200 score matrices the body takes each column's maximum (over the query index), subtracts it,
  exponentiates, divides by the column's sum, multiplies each head's weight matrix by its value matrix into
  a zero accumulator, and unfolds the batch axis of 200 back into 25 positions and 8 heads. Read at
  (0, n, h, i, e) the stored block is the context of the block's head (n, h) at (i, e); the stored score
  block at (0, n, h, i, j) is the score matrix of batch index 8 n + h at (i, j).
-/
import proofs.«172661_j17145509446375_2_alg».proof.Proof.Gen.KernelIdeal.Skeleton
import proofs.«172661_j17145509446375_2_alg».proof.Proof.Spec
import proofs.«172661_j17145509446375_2_alg».proof.Proof.LibKeepdims3
import proofs.«172661_j17145509446375_2_alg».proof.Proof.BodyScore
import Idealize.ShloMosaic.Lib.Pipeline.Value
import Idealize.ShloMosaic.Lib.ValueIdx
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ## The batch axis of 200 laid out as 25 positions by 8 heads

Two shape casts take `[200, 24, c]` to `[25, 8, 24, c]` and on to `[1, 25, 8, 24, c]` (or back). All three
arrays are row-major, so the entry `(0, n, h, i, j)` of the last is the entry `(8 n + h, i, j)` of the first:
both sit at position `((8 n + h) · 24 + i) · c + j`. -/

/-- Head `(n, h)` of `[25, 8, 24, c]` and batch index `8 n + h` of `[200, 24, c]` have the same row-major position. -/
theorem pos_three_four {c : ℕ} (n : Fin 25) (h : Fin 8) (i : Fin 24) (j : Fin c) :
    ((⟨3, ![200, 24, c]⟩ : Shape).rowMajor (ix3 (headOf n h) i j)).val
      = ((⟨4, ![25, 8, 24, c]⟩ : Shape).rowMajor (ix4 n h i j)).val := by
  rw [Shape.rowMajor_val_three, Shape.rowMajor_val_four]
  rfl

/-- A leading unit axis does not move an entry: `(0, n, h, i, j)` of `[1, 25, 8, 24, c]` sits where `(n, h, i, j)` of
    `[25, 8, 24, c]` does. -/
theorem pos_four_five {c : ℕ} (n : Fin 25) (h : Fin 8) (i : Fin 24) (j : Fin c) :
    ((⟨4, ![25, 8, 24, c]⟩ : Shape).rowMajor (ix4 n h i j)).val
      = ((⟨5, ![1, 25, 8, 24, c]⟩ : Shape).rowMajor (ix5 (0 : Fin 1) n h i j)).val := by
  rw [Shape.rowMajor_val_four, Shape.rowMajor_val_five]
  show ((n.val * 8 + h.val) * 24 + i.val) * c + j.val = (((0 * 25 + n.val) * 8 + h.val) * 24 + i.val) * c + j.val
  rw [Nat.zero_mul, Nat.zero_add]

/-- Unfolding the batch axis: `[200, 24, c] → [25, 8, 24, c] → [1, 25, 8, 24, c]` read at `(0, n, h, i, j)`. -/
theorem unfold_heads_apply {α : Type} {c : ℕ} (x : (⟨3, ![200, 24, c]⟩ : Shape).Idx → α)
    (h1 : (⟨3, ![200, 24, c]⟩ : Shape).ShapeCasts ⟨4, ![25, 8, 24, c]⟩)
    (h2 : (⟨4, ![25, 8, 24, c]⟩ : Shape).ShapeCasts ⟨5, ![1, 25, 8, 24, c]⟩)
    (n : Fin 25) (h : Fin 8) (i : Fin 24) (j : Fin c) :
    shapeCast ⟨5, ![1, 25, 8, 24, c]⟩ (shapeCast ⟨4, ![25, 8, 24, c]⟩ x h1) h2 (ix5 (0 : Fin 1) n h i j)
      = x (ix3 (headOf n h) i j) :=
  (shapeCast_apply _ h2 (ix5 (0 : Fin 1) n h i j) (ix4 n h i j) (pos_four_five n h i j)).trans
    (shapeCast_apply x h1 (ix4 n h i j) (ix3 (headOf n h) i j) (pos_three_four n h i j))

/-- Folding the batch axis: `[1, 25, 8, 24, c] → [25, 8, 24, c] → [200, 24, c]` read at `(8 n + h, i, j)`. -/
theorem fold_heads_apply {α : Type} {c : ℕ} (x : (⟨5, ![1, 25, 8, 24, c]⟩ : Shape).Idx → α)
    (h1 : (⟨5, ![1, 25, 8, 24, c]⟩ : Shape).ShapeCasts ⟨4, ![25, 8, 24, c]⟩)
    (h2 : (⟨4, ![25, 8, 24, c]⟩ : Shape).ShapeCasts ⟨3, ![200, 24, c]⟩)
    (n : Fin 25) (h : Fin 8) (i : Fin 24) (j : Fin c) :
    shapeCast ⟨3, ![200, 24, c]⟩ (shapeCast ⟨4, ![25, 8, 24, c]⟩ x h1) h2 (ix3 (headOf n h) i j)
      = x (ix5 (0 : Fin 1) n h i j) :=
  (shapeCast_apply _ h2 (ix3 (headOf n h) i j) (ix4 n h i j) (pos_three_four n h i j).symm).trans
    (shapeCast_apply x h1 (ix4 n h i j) (ix5 (0 : Fin 1) n h i j) (pos_four_five n h i j).symm)

/-- The score store's payload only re-lays the 200 score matrices as 25 positions by 8 heads. -/
theorem pay1_apply (S : FVec Ideal S200x24x24 .f32) (n : Fin 25) (h : Fin 8) (i j : Fin 24) :
    k0_pay1 (F := Ideal) S (ix5 (0 : Fin 1) n h i j) = S (ix3 (headOf n h) i j) := by
  unfold k0_pay1
  exact unfold_heads_apply S _ _ n h i j

/-- The value operand: the value block folded to 200 matrices (the rounding to the narrow format is the identity
    on extended reals), read at `(8 n + h, k, d)`, is the value matrix of head `(n, h)` at `(k, d)`. -/
theorem pay3_apply (Pv : Vec Ideal S1x25x8x24x64 .f32) (n : Fin 25) (h : Fin 8) (k : Fin 24) (d : Fin 64) :
    k0_pay3 (F := Ideal) Pv (ix3 (headOf n h) k d) = blkW Pv n h k d := by
  unfold k0_pay3
  exact fold_heads_apply Pv _ _ n h k d

/-! ## The column statistics

The maximum and the sum run over the MIDDLE axis of a `[200, 24, 24]` array — the query index — and come back as
`[200, 1, 24]` arrays that are broadcast over that axis again. -/

/-- The keepdims column maximum of the score matrices, read at `(B, 0, j)`, is the maximum of column `j` of matrix `B`. -/
theorem colmax_apply (S : FVec Ideal S200x24x24 .f32) (hr : S200x24x24.Reduces [1] S200x24) (hφ : FKind.Formats .f32)
    (hacc : (0xFF800000#32 : BitVec (FTy.bits .f32)) = FKind.maximumf.neutral .f32 hφ) (hc : S200x24.ShapeCasts S200x1x24)
    (B : Fin 200) (j : Fin 24) :
    shapeCast S200x1x24 (multiReduction (F := Ideal) .maximumf [1] S200x24 S 0xFF800000#32 hr hφ hacc) hc (ix3 B (0 : Fin 1) j)
      = colMax (fun a c => S (ix3 B a c)) j :=
  (Cert.Keepdims3.shapeCast_ac_a1c_apply _ hc B (0 : Fin 1) j).trans
    (Cert.Keepdims3.multiReduction_maximumf_axis1_apply S 0xFF800000#32 hr hφ hacc B j)

/-- The softmax weights as the body computes them from the score matrices `S` and a keepdims array `mx` that holds
    each column's maximum: at `(B, i, j)` the weight of matrix `B` at `(i, j)`. -/
theorem weight_apply (S : FVec Ideal S200x24x24 .f32) (mx : FVec Ideal S200x1x24 .f32)
    (hb : S200x1x24.Broadcasts S200x24x24) (hr : S200x24x24.Reduces [1] S200x24) (hφ : FKind.Formats .f32)
    (hacc : (0x00000000#32 : BitVec (FTy.bits .f32)) = FKind.add.neutral .f32 hφ) (hc : S200x24.ShapeCasts S200x1x24)
    (B : Fin 200) (i j : Fin 24) (hmx : mx (ix3 B (0 : Fin 1) j) = colMax (fun a c => S (ix3 B a c)) j) :
    divf (exp (subf S (broadcastTo S200x24x24 mx hb)))
        (broadcastTo S200x24x24
          (shapeCast S200x1x24
            (multiReduction (F := Ideal) .add [1] S200x24 (exp (subf S (broadcastTo S200x24x24 mx hb))) 0x00000000#32 hr hφ hacc) hc)
          hb) (ix3 B i j)
      = weight (fun a c => S (ix3 B a c)) i j := by
  -- the exponentials of column `j` of matrix `B`
  have he : ∀ a : Fin 24, exp (subf S (broadcastTo S200x24x24 mx hb)) (ix3 B a j) = expo (fun a c => S (ix3 B a c)) a j :=
    fun a => congrArg (fun m => Ideal.exp (S (ix3 B a j) - m))
      ((Cert.Keepdims3.broadcastTo_a1c_abc_apply mx hb B a j).trans hmx)
  refine congrArg₂ Ideal.div (he i) ?_
  -- the column's sum, put back on the unit axis and broadcast
  refine (Cert.Keepdims3.broadcastTo_a1c_abc_apply _ hb B i j).trans ?_
  refine (Cert.Keepdims3.shapeCast_ac_a1c_apply _ hc B (0 : Fin 1) j).trans ?_
  refine (Cert.Keepdims3.multiReduction_add_axis1_apply _ _ hr hφ hacc B j).trans ?_
  exact Finset.sum_congr rfl fun k _ => he k

/-! ## The product with the value matrices -/

/-- On the batch axis the left operand's index is the result's. -/
theorem mm_lhs_0 (y : S200x24x64.Idx) (q : dot_S200x24x24_S200x24x64_S200x24x64_2_1_1_2_0_0.contr.Idx) : (dot_S200x24x24_S200x24x64_S200x24x64_2_1_1_2_0_0.lhsIdx y q 0).val = (y 0).val := by
  unfold DotDims.lhsIdx
  rw [dif_pos (show (0 : Fin S200x24x24.rank) ∈ dot_S200x24x24_S200x24x64_S200x24x64_2_1_1_2_0_0.lhsBatch by decide)]
  rfl
/-- On its row axis the left operand's index is the result's row. -/
theorem mm_lhs_1 (y : S200x24x64.Idx) (q : dot_S200x24x24_S200x24x64_S200x24x64_2_1_1_2_0_0.contr.Idx) : (dot_S200x24x24_S200x24x64_S200x24x64_2_1_1_2_0_0.lhsIdx y q 1).val = (y 1).val := by
  unfold DotDims.lhsIdx
  rw [dif_neg (show ¬(1 : Fin S200x24x24.rank) ∈ dot_S200x24x24_S200x24x64_S200x24x64_2_1_1_2_0_0.lhsBatch by decide), dif_pos (show (1 : Fin S200x24x24.rank) ∈ dot_S200x24x24_S200x24x64_S200x24x64_2_1_1_2_0_0.lhsNonContracting by decide)]
  rfl
/-- On its column axis the left operand's index is the contraction position. -/
theorem mm_lhs_2 (y : S200x24x64.Idx) (q : dot_S200x24x24_S200x24x64_S200x24x64_2_1_1_2_0_0.contr.Idx) : (dot_S200x24x24_S200x24x64_S200x24x64_2_1_1_2_0_0.lhsIdx y q 2).val = (q ⟨0, by decide⟩).val :=
  dot_S200x24x24_S200x24x64_S200x24x64_2_1_1_2_0_0.lhsIdx_val_of_single rfl y q
/-- On the batch axis the right operand's index is the result's. -/
theorem mm_rhs_0 (y : S200x24x64.Idx) (q : dot_S200x24x24_S200x24x64_S200x24x64_2_1_1_2_0_0.contr.Idx) : (dot_S200x24x24_S200x24x64_S200x24x64_2_1_1_2_0_0.rhsIdx y q 0).val = (y 0).val := by
  unfold DotDims.rhsIdx
  rw [dif_pos (show (0 : Fin S200x24x64.rank) ∈ dot_S200x24x24_S200x24x64_S200x24x64_2_1_1_2_0_0.rhsBatch by decide)]
  rfl
/-- On its row axis the right operand's index is the contraction position. -/
theorem mm_rhs_1 (y : S200x24x64.Idx) (q : dot_S200x24x24_S200x24x64_S200x24x64_2_1_1_2_0_0.contr.Idx) : (dot_S200x24x24_S200x24x64_S200x24x64_2_1_1_2_0_0.rhsIdx y q 1).val = (q ⟨0, by decide⟩).val :=
  dot_S200x24x24_S200x24x64_S200x24x64_2_1_1_2_0_0.rhsIdx_val_of_single rfl y q
/-- On its column axis the right operand's index is the result's column. -/
theorem mm_rhs_2 (y : S200x24x64.Idx) (q : dot_S200x24x24_S200x24x64_S200x24x64_2_1_1_2_0_0.contr.Idx) : (dot_S200x24x24_S200x24x64_S200x24x64_2_1_1_2_0_0.rhsIdx y q 2).val = (y 2).val := by
  unfold DotDims.rhsIdx
  rw [dif_neg (show ¬(2 : Fin S200x24x64.rank) ∈ dot_S200x24x24_S200x24x64_S200x24x64_2_1_1_2_0_0.rhsBatch by decide), dif_pos (show (2 : Fin S200x24x64.rank) ∈ dot_S200x24x24_S200x24x64_S200x24x64_2_1_1_2_0_0.rhsNonContracting by decide)]
  rfl

/-- The batched product into a zero accumulator, read at `(B, i, e)`: row `i` of the left matrix `B` against column `e`
    of the right matrix `B`. -/
theorem mm_apply (W : FVec Ideal S200x24x24 .bf16) (V : FVec Ideal S200x24x64 .bf16) (B : Fin 200) (i : Fin 24) (e : Fin 64) :
    matmul dot_S200x24x24_S200x24x64_S200x24x64_2_1_1_2_0_0 none W V (constant (F := Ideal) S200x24x64 .f32 0x00000000#32) (ix3 B i e)
      = ∑ k : Fin 24, W (ix3 B i k) * V (ix3 B k e) := by
  refine (Ideal.matmul_constant_zero_apply dot_S200x24x24_S200x24x64_S200x24x64_2_1_1_2_0_0 none W V (ix3 B i e)).trans ?_
  rw [← Equiv.sum_comp (contrEquiv1 dot_S200x24x24_S200x24x64_S200x24x64_2_1_1_2_0_0 24 rfl rfl).symm]
  refine Finset.sum_congr rfl fun k _ => ?_
  have hk := contrEquiv1_symm_val dot_S200x24x24_S200x24x64_S200x24x64_2_1_1_2_0_0 24 rfl rfl k
  have el : dot_S200x24x24_S200x24x64_S200x24x64_2_1_1_2_0_0.lhsIdx (ix3 B i e) ((contrEquiv1 dot_S200x24x24_S200x24x64_S200x24x64_2_1_1_2_0_0 24 rfl rfl).symm k) = ix3 B i k := funext fun a => Fin.ext (by
    match a with
    | ⟨0, _⟩ => exact mm_lhs_0 _ _
    | ⟨1, _⟩ => exact mm_lhs_1 _ _
    | ⟨2, _⟩ => exact (mm_lhs_2 _ _).trans hk)
  have er : dot_S200x24x24_S200x24x64_S200x24x64_2_1_1_2_0_0.rhsIdx (ix3 B i e) ((contrEquiv1 dot_S200x24x24_S200x24x64_S200x24x64_2_1_1_2_0_0 24 rfl rfl).symm k) = ix3 B k e := funext fun a => Fin.ext (by
    match a with
    | ⟨0, _⟩ => exact mm_rhs_0 _ _
    | ⟨1, _⟩ => exact (mm_rhs_1 _ _).trans hk
    | ⟨2, _⟩ => exact mm_rhs_2 _ _)
  rw [el, er]

/-! ## The context payload -/

/-- The context payload over any score matrices `S`, value matrices `V` and keepdims array `mx` of `S`'s column maxima:
    at `(0, n, h, i, e)` the context of matrix `8 n + h`. -/
theorem pay2_of_colMax (V : FVec Ideal S200x24x64 .bf16) (S : FVec Ideal S200x24x24 .f32) (mx : FVec Ideal S200x1x24 .f32)
    (n : Fin 25) (h : Fin 8) (i : Fin 24) (e : Fin 64)
    (hmx : ∀ j : Fin 24, mx (ix3 (headOf n h) (0 : Fin 1) j) = colMax (fun a c => S (ix3 (headOf n h) a c)) j) :
    k0_pay2 (F := Ideal) V S mx (ix5 (0 : Fin 1) n h i e)
      = context (fun a c => S (ix3 (headOf n h) a c)) (fun k d => V (ix3 (headOf n h) k d)) i e := by
  unfold k0_pay2
  refine (unfold_heads_apply _ _ _ n h i e).trans ?_
  refine (mm_apply _ V (headOf n h) i e).trans ?_
  refine Finset.sum_congr rfl fun k _ => ?_
  refine congrArg (· * V (ix3 (headOf n h) k e)) ?_
  exact weight_apply S mx _ _ _ _ _ (headOf n h) i k (hmx k)

/-- The context store's payload at `(0, n, h, i, e)` is the context of the block's head `(n, h)`: `P0`, `P1`, `Pv`
    are the query, key and value blocks, `Pr` the residual block and `Pm` the mask block. -/
theorem pay2_apply (P0 P1 Pv : Vec Ideal S1x25x8x24x64 .f32) (Pr Pm : Vec Ideal S1x25x8x24x24 .f32)
    (n : Fin 25) (h : Fin 8) (i : Fin 24) (e : Fin 64) :
    k0_pay2 (F := Ideal) (k0_pay3 Pv) (k0_pay4 P0 P1 Pr Pm) (k0_pay5 P0 P1 Pr Pm) (ix5 (0 : Fin 1) n h i e)
      = context (score (blkW P0 n h) (blkW P1 n h) (blkN Pm n h) (blkN Pr n h)) (blkW Pv n h) i e := by
  have hS : (fun a c => k0_pay4 (F := Ideal) P0 P1 Pr Pm (ix3 (headOf n h) a c))
      = score (blkW P0 n h) (blkW P1 n h) (blkN Pm n h) (blkN Pr n h) :=
    funext fun a => funext fun c => pay4_apply P0 P1 Pr Pm n h a c
  have hV : (fun k d => k0_pay3 (F := Ideal) Pv (ix3 (headOf n h) k d)) = blkW Pv n h :=
    funext fun k => funext fun d => pay3_apply Pv n h k d
  refine (pay2_of_colMax (k0_pay3 Pv) (k0_pay4 P0 P1 Pr Pm) (k0_pay5 P0 P1 Pr Pm) n h i e fun j => ?_).trans ?_
  · unfold k0_pay5
    exact colmax_apply (k0_pay4 P0 P1 Pr Pm) _ _ _ _ (headOf n h) j
  · exact congrArg₂ (fun s v => context s v i e) hS hV

end Cert.Attn.Body

end
-- ==== Proof.Blocks.lean ====
/-
  From blocks to arrays: what the kernel's two result arrays hold after all grid points have written back.

  The grid has 16 by 13 points. At point (b, q) every window's block is positions 25 q … 25 q + 24 of the
  second axis at first coordinate b, whole on the other three axes; so head (n, h) of a block is head
  (b, 25 q + n, h) of the array. The body leaves in the two output blocks the scores and the contexts of
  the block's 200 heads; read through the block these are the score array and the context array of the
  specification restricted to the block; and the 208 blocks cover the arrays.
-/
import proofs.«172661_j17145509446375_2_alg».proof.Proof.ValuePatched
import proofs.«172661_j17145509446375_2_alg».proof.Proof.BodyContext
import proofs.«172661_j17145509446375_2_alg».proof.Proof.Spec
import Idealize.ShloMosaic.Lib.Pipeline.Value

noncomputable section

namespace Cert.Attn.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0, 0, 0] : Fin 5 → Nat) = fun _ => 0 := funext fun a => by fin_cases a <;> rfl

/-- Position `25 q + n` of the second axis: place `n` of block `q`. -/
def posOf (q : Fin 13) (n : Fin 25) : Fin 325 :=
  ⟨q.val * 25 + n.val, by have := q.isLt; have := n.isLt; omega⟩

/-- The index maps, decided over the 208 grid points: the context window's block position is `(b, q, 0, 0, 0)` with
    `b < 16`, `q < 13`, and every other window is at the same block position. -/
theorem idx_facts : ∀ t : Fin cfg0.N,
    win0_5.index t (0 : Fin 5) < 16 ∧ win0_5.index t (1 : Fin 5) < 13
    ∧ win0_5.index t (2 : Fin 5) = 0 ∧ win0_5.index t (3 : Fin 5) = 0 ∧ win0_5.index t (4 : Fin 5) = 0
    ∧ (∀ a : Fin 5, win0_0.index t a = win0_5.index t a) ∧ (∀ a : Fin 5, win0_1.index t a = win0_5.index t a)
    ∧ (∀ a : Fin 5, win0_2.index t a = win0_5.index t a) ∧ (∀ a : Fin 5, win0_3.index t a = win0_5.index t a)
    ∧ (∀ a : Fin 5, win0_4.index t a = win0_5.index t a) ∧ (∀ a : Fin 5, win0_6.index t a = win0_5.index t a) :=
  (by decide +kernel : ∀ t : Fin grid0.N, _)

/-- Every block position `(b, q)` is some grid point's. -/
theorem idx_onto : ∀ (b : Fin 16) (q : Fin 13), ∃ t : Fin cfg0.N,
    win0_5.index t (0 : Fin 5) = b.val ∧ win0_5.index t (1 : Fin 5) = q.val :=
  (by decide +kernel : ∀ (b : Fin 16) (q : Fin 13), ∃ t : Fin grid0.N,
    win0_5.index t (0 : Fin 5) = b.val ∧ win0_5.index t (1 : Fin 5) = q.val)

/-! ## The input blocks, read -/

/-- Input window 0's block at a point whose block position is `(b, q)`: head `(n, h)` of the block is head
    `(b, 25 q + n, h)` of the array the region finds in `main_arg0`. -/
theorem iblk0_apply (c : Dev nD) (t : Fin cfg0.N) (b : Fin 16) (q : Fin 13)
    (hb : win0_5.index t (0 : Fin 5) = b.val) (hq : win0_5.index t (1 : Fin 5) = q.val)
    (n : Fin 25) (h : Fin 8) (i : Fin 24) (d : Fin 64) :
    (iblk m c 0 t : Vec Ideal S1x25x8x24x64 .f32) (ix5 (0 : Fin 1) n h i d)
      = (V m c main_arg0 : S16x325x8x24x64.Idx → EReal) (ix5 b (posOf q n) h i d) := by
  obtain ⟨-, -, z2, z3, z4, e0, e1, e2, e3, e4, -⟩ := idx_facts t
  unfold iblk
  rw [View.read_apply]
  show V m c main_arg0 _ = V m c main_arg0 _
  congr 1
  funext a
  apply Fin.ext
  match a with
  | ⟨0, _⟩ => show win0_0.index t (0 : Fin 5) * 1 + 1 * ((0 : Fin 1) : Nat) = b.val; rw [e0 0, hb]; simp
  | ⟨1, _⟩ => show win0_0.index t (1 : Fin 5) * 25 + 1 * n.val = q.val * 25 + n.val; rw [e0 1, hq]; omega
  | ⟨2, _⟩ => show win0_0.index t (2 : Fin 5) * 8 + 1 * h.val = h.val; rw [e0 2, z2]; omega
  | ⟨3, _⟩ => show win0_0.index t (3 : Fin 5) * 24 + 1 * i.val = i.val; rw [e0 3, z3]; omega
  | ⟨4, _⟩ => show win0_0.index t (4 : Fin 5) * 64 + 1 * d.val = d.val; rw [e0 4, z4]; omega

/-- Input window 1's block at a point whose block position is `(b, q)`: head `(n, h)` of the block is head
    `(b, 25 q + n, h)` of the array the region finds in `main_arg1`. -/
theorem iblk1_apply (c : Dev nD) (t : Fin cfg0.N) (b : Fin 16) (q : Fin 13)
    (hb : win0_5.index t (0 : Fin 5) = b.val) (hq : win0_5.index t (1 : Fin 5) = q.val)
    (n : Fin 25) (h : Fin 8) (i : Fin 24) (d : Fin 64) :
    (iblk m c 1 t : Vec Ideal S1x25x8x24x64 .f32) (ix5 (0 : Fin 1) n h i d)
      = (V m c main_arg1 : S16x325x8x24x64.Idx → EReal) (ix5 b (posOf q n) h i d) := by
  obtain ⟨-, -, z2, z3, z4, e0, e1, e2, e3, e4, -⟩ := idx_facts t
  unfold iblk
  rw [View.read_apply]
  show V m c main_arg1 _ = V m c main_arg1 _
  congr 1
  funext a
  apply Fin.ext
  match a with
  | ⟨0, _⟩ => show win0_1.index t (0 : Fin 5) * 1 + 1 * ((0 : Fin 1) : Nat) = b.val; rw [e1 0, hb]; simp
  | ⟨1, _⟩ => show win0_1.index t (1 : Fin 5) * 25 + 1 * n.val = q.val * 25 + n.val; rw [e1 1, hq]; omega
  | ⟨2, _⟩ => show win0_1.index t (2 : Fin 5) * 8 + 1 * h.val = h.val; rw [e1 2, z2]; omega
  | ⟨3, _⟩ => show win0_1.index t (3 : Fin 5) * 24 + 1 * i.val = i.val; rw [e1 3, z3]; omega
  | ⟨4, _⟩ => show win0_1.index t (4 : Fin 5) * 64 + 1 * d.val = d.val; rw [e1 4, z4]; omega

/-- Input window 2's block at a point whose block position is `(b, q)`: head `(n, h)` of the block is head
    `(b, 25 q + n, h)` of the array the region finds in `main_arg2`. -/
theorem iblk2_apply (c : Dev nD) (t : Fin cfg0.N) (b : Fin 16) (q : Fin 13)
    (hb : win0_5.index t (0 : Fin 5) = b.val) (hq : win0_5.index t (1 : Fin 5) = q.val)
    (n : Fin 25) (h : Fin 8) (i : Fin 24) (d : Fin 64) :
    (iblk m c 2 t : Vec Ideal S1x25x8x24x64 .f32) (ix5 (0 : Fin 1) n h i d)
      = (V m c main_arg2 : S16x325x8x24x64.Idx → EReal) (ix5 b (posOf q n) h i d) := by
  obtain ⟨-, -, z2, z3, z4, e0, e1, e2, e3, e4, -⟩ := idx_facts t
  unfold iblk
  rw [View.read_apply]
  show V m c main_arg2 _ = V m c main_arg2 _
  congr 1
  funext a
  apply Fin.ext
  match a with
  | ⟨0, _⟩ => show win0_2.index t (0 : Fin 5) * 1 + 1 * ((0 : Fin 1) : Nat) = b.val; rw [e2 0, hb]; simp
  | ⟨1, _⟩ => show win0_2.index t (1 : Fin 5) * 25 + 1 * n.val = q.val * 25 + n.val; rw [e2 1, hq]; omega
  | ⟨2, _⟩ => show win0_2.index t (2 : Fin 5) * 8 + 1 * h.val = h.val; rw [e2 2, z2]; omega
  | ⟨3, _⟩ => show win0_2.index t (3 : Fin 5) * 24 + 1 * i.val = i.val; rw [e2 3, z3]; omega
  | ⟨4, _⟩ => show win0_2.index t (4 : Fin 5) * 64 + 1 * d.val = d.val; rw [e2 4, z4]; omega

/-- Input window 3's block at a point whose block position is `(b, q)`: head `(n, h)` of the block is head
    `(b, 25 q + n, h)` of the array the region finds in `main_arg3`. -/
theorem iblk3_apply (c : Dev nD) (t : Fin cfg0.N) (b : Fin 16) (q : Fin 13)
    (hb : win0_5.index t (0 : Fin 5) = b.val) (hq : win0_5.index t (1 : Fin 5) = q.val)
    (n : Fin 25) (h : Fin 8) (i : Fin 24) (d : Fin 24) :
    (iblk m c 3 t : Vec Ideal S1x25x8x24x24 .f32) (ix5 (0 : Fin 1) n h i d)
      = (V m c main_arg3 : S16x325x8x24x24.Idx → EReal) (ix5 b (posOf q n) h i d) := by
  obtain ⟨-, -, z2, z3, z4, e0, e1, e2, e3, e4, -⟩ := idx_facts t
  unfold iblk
  rw [View.read_apply]
  show V m c main_arg3 _ = V m c main_arg3 _
  congr 1
  funext a
  apply Fin.ext
  match a with
  | ⟨0, _⟩ => show win0_3.index t (0 : Fin 5) * 1 + 1 * ((0 : Fin 1) : Nat) = b.val; rw [e3 0, hb]; simp
  | ⟨1, _⟩ => show win0_3.index t (1 : Fin 5) * 25 + 1 * n.val = q.val * 25 + n.val; rw [e3 1, hq]; omega
  | ⟨2, _⟩ => show win0_3.index t (2 : Fin 5) * 8 + 1 * h.val = h.val; rw [e3 2, z2]; omega
  | ⟨3, _⟩ => show win0_3.index t (3 : Fin 5) * 24 + 1 * i.val = i.val; rw [e3 3, z3]; omega
  | ⟨4, _⟩ => show win0_3.index t (4 : Fin 5) * 24 + 1 * d.val = d.val; rw [e3 4, z4]; omega

/-- Input window 4's block at a point whose block position is `(b, q)`: head `(n, h)` of the block is head
    `(b, 25 q + n, h)` of the array the region finds in `main_arg4`. -/
theorem iblk4_apply (c : Dev nD) (t : Fin cfg0.N) (b : Fin 16) (q : Fin 13)
    (hb : win0_5.index t (0 : Fin 5) = b.val) (hq : win0_5.index t (1 : Fin 5) = q.val)
    (n : Fin 25) (h : Fin 8) (i : Fin 24) (d : Fin 24) :
    (iblk m c 4 t : Vec Ideal S1x25x8x24x24 .f32) (ix5 (0 : Fin 1) n h i d)
      = (V m c main_arg4 : S16x325x8x24x24.Idx → EReal) (ix5 b (posOf q n) h i d) := by
  obtain ⟨-, -, z2, z3, z4, e0, e1, e2, e3, e4, -⟩ := idx_facts t
  unfold iblk
  rw [View.read_apply]
  show V m c main_arg4 _ = V m c main_arg4 _
  congr 1
  funext a
  apply Fin.ext
  match a with
  | ⟨0, _⟩ => show win0_4.index t (0 : Fin 5) * 1 + 1 * ((0 : Fin 1) : Nat) = b.val; rw [e4 0, hb]; simp
  | ⟨1, _⟩ => show win0_4.index t (1 : Fin 5) * 25 + 1 * n.val = q.val * 25 + n.val; rw [e4 1, hq]; omega
  | ⟨2, _⟩ => show win0_4.index t (2 : Fin 5) * 8 + 1 * h.val = h.val; rw [e4 2, z2]; omega
  | ⟨3, _⟩ => show win0_4.index t (3 : Fin 5) * 24 + 1 * i.val = i.val; rw [e4 3, z3]; omega
  | ⟨4, _⟩ => show win0_4.index t (4 : Fin 5) * 24 + 1 * d.val = d.val; rw [e4 4, z4]; omega

/-! ## What a point writes back -/

/-- The score payload of a point, for ANY five blocks that are head by head the slabs of five arrays at block position
    `(b, q)`: at a block index `y` it is the score array at the array index `k` that `y` sits at. -/
theorem scores_point (x0 x1 : Vec Ideal S1x25x8x24x64 .f32) (x3 x4 : Vec Ideal S1x25x8x24x24 .f32)
    (A0 A1 : S16x325x8x24x64.Idx → EReal) (A3 A4 : S16x325x8x24x24.Idx → EReal) (b : Fin 16) (q : Fin 13)
    (h0 : ∀ n h, blkW x0 n h = slabW A0 b (posOf q n) h) (h1 : ∀ n h, blkW x1 n h = slabW A1 b (posOf q n) h)
    (h3 : ∀ n h, blkN x3 n h = slabN A3 b (posOf q n) h) (h4 : ∀ n h, blkN x4 n h = slabN A4 b (posOf q n) h)
    (y : S1x25x8x24x24.Idx) (k : S16x325x8x24x24.Idx) (hk0 : (k 0).val = b.val) (hk1 : (k 1).val = q.val * 25 + (y 1).val)
    (hk2 : (k 2).val = (y 2).val) (hk3 : (k 3).val = (y 3).val) (hk4 : (k 4).val = (y 4).val) :
    k0_pay1 (F := Ideal) (k0_pay4 x0 x1 x4 x3) y = scoresAt A0 A1 A3 A4 k := by
  obtain ⟨u, n, h, i, j, rfl⟩ : ∃ (u : Fin 1) (n : Fin 25) (h : Fin 8) (i j : Fin 24), y = ix5 u n h i j :=
    ⟨y 0, y 1, y 2, y 3, y 4, eq_ix5 y⟩
  obtain rfl : u = 0 := Subsingleton.elim _ _
  obtain rfl : k = ix5 b (posOf q n) h i j := by
    funext a; apply Fin.ext
    match a with
    | ⟨0, _⟩ => exact hk0
    | ⟨1, _⟩ => exact hk1
    | ⟨2, _⟩ => exact hk2
    | ⟨3, _⟩ => exact hk3
    | ⟨4, _⟩ => exact hk4
  rw [Body.pay1_apply, Body.pay4_apply]
  show score (blkW x0 n h) (blkW x1 n h) (blkN x3 n h) (blkN x4 n h) i j
    = score (slabW A0 b (posOf q n) h) (slabW A1 b (posOf q n) h) (slabN A3 b (posOf q n) h) (slabN A4 b (posOf q n) h) i j
  rw [h0, h1, h3, h4]

/-- The context payload of a point, likewise: at a block index `y` it is the context array at the array index `k`
    that `y` sits at. -/
theorem context_point (x0 x1 x2 : Vec Ideal S1x25x8x24x64 .f32) (x3 x4 : Vec Ideal S1x25x8x24x24 .f32)
    (A0 A1 A2 : S16x325x8x24x64.Idx → EReal) (A3 A4 : S16x325x8x24x24.Idx → EReal) (b : Fin 16) (q : Fin 13)
    (h0 : ∀ n h, blkW x0 n h = slabW A0 b (posOf q n) h) (h1 : ∀ n h, blkW x1 n h = slabW A1 b (posOf q n) h)
    (h2 : ∀ n h, blkW x2 n h = slabW A2 b (posOf q n) h)
    (h3 : ∀ n h, blkN x3 n h = slabN A3 b (posOf q n) h) (h4 : ∀ n h, blkN x4 n h = slabN A4 b (posOf q n) h)
    (y : S1x25x8x24x64.Idx) (k : S16x325x8x24x64.Idx) (hk0 : (k 0).val = b.val) (hk1 : (k 1).val = q.val * 25 + (y 1).val)
    (hk2 : (k 2).val = (y 2).val) (hk3 : (k 3).val = (y 3).val) (hk4 : (k 4).val = (y 4).val) :
    k0_pay2 (F := Ideal) (k0_pay3 x2) (k0_pay4 x0 x1 x4 x3) (k0_pay5 x0 x1 x4 x3) y = contextAt A0 A1 A2 A3 A4 k := by
  obtain ⟨u, n, h, i, e, rfl⟩ : ∃ (u : Fin 1) (n : Fin 25) (h : Fin 8) (i : Fin 24) (e : Fin 64), y = ix5 u n h i e :=
    ⟨y 0, y 1, y 2, y 3, y 4, eq_ix5 y⟩
  obtain rfl : u = 0 := Subsingleton.elim _ _
  obtain rfl : k = ix5 b (posOf q n) h i e := by
    funext a; apply Fin.ext
    match a with
    | ⟨0, _⟩ => exact hk0
    | ⟨1, _⟩ => exact hk1
    | ⟨2, _⟩ => exact hk2
    | ⟨3, _⟩ => exact hk3
    | ⟨4, _⟩ => exact hk4
  rw [Body.pay2_apply]
  show context (score (blkW x0 n h) (blkW x1 n h) (blkN x3 n h) (blkN x4 n h)) (blkW x2 n h) i e
    = context (score (slabW A0 b (posOf q n) h) (slabW A1 b (posOf q n) h) (slabN A3 b (posOf q n) h)
        (slabN A4 b (posOf q n) h)) (slabW A2 b (posOf q n) h) i e
  rw [h0, h1, h2, h3, h4]

/-- WHAT POINT `t` WRITES BACK to the score array is block `t` of the score array of the arguments. -/
theorem flushed6_eq (c : Dev nD) (t : Fin cfg0.N) :
    (dats m 0 c).flushed 6 t = ((cfg0.win 6).blk t).view.read (Elt Ideal)
      (scoresAt (V m c main_arg0) (V m c main_arg1) (V m c main_arg3) (V m c main_arg4)) := by
  obtain ⟨hb, hq, z2, z3, z4, -, -, -, -, -, e6⟩ := idx_facts t
  rw [Cert.KernelIdeal.ValueP.flushed6]
  unfold out0_6
  rw [View.canon_unit_zero hz]
  simp only [View.ld_unit_zero (S := S1x25x8x24x64) hz, View.ld_unit_zero (S := S1x25x8x24x24) hz]
  funext y
  show k0_pay1 (k0_pay4 (iblk m c 0 t) (iblk m c 1 t) (iblk m c 4 t) (iblk m c 3 t)) y
    = scoresAt (V m c main_arg0) (V m c main_arg1) (V m c main_arg3) (V m c main_arg4) (((cfg0.win 6).blk t).view.emb y)
  refine scores_point (iblk m c 0 t) (iblk m c 1 t) (iblk m c 3 t) (iblk m c 4 t) (V m c main_arg0) (V m c main_arg1)
    (V m c main_arg3) (V m c main_arg4) ⟨win0_5.index t (0 : Fin 5), hb⟩ ⟨win0_5.index t (1 : Fin 5), hq⟩
    (fun n h => funext fun i => funext fun d => iblk0_apply m c t _ _ rfl rfl n h i d)
    (fun n h => funext fun i => funext fun d => iblk1_apply m c t _ _ rfl rfl n h i d)
    (fun n h => funext fun i => funext fun d => iblk3_apply m c t _ _ rfl rfl n h i d)
    (fun n h => funext fun i => funext fun d => iblk4_apply m c t _ _ rfl rfl n h i d)
    y (((cfg0.win 6).blk t).view.emb y) ?_ ?_ ?_ ?_ ?_
  · show win0_6.index t (0 : Fin 5) * 1 + 1 * (y 0).val = win0_5.index t (0 : Fin 5)
    have hy : (y 0).val < 1 := (y 0).isLt
    rw [e6 0]; omega
  · show win0_6.index t (1 : Fin 5) * 25 + 1 * (y 1).val = win0_5.index t (1 : Fin 5) * 25 + (y 1).val
    rw [e6 1]; omega
  · show win0_6.index t (2 : Fin 5) * 8 + 1 * (y 2).val = (y 2).val
    rw [e6 2, z2]; omega
  · show win0_6.index t (3 : Fin 5) * 24 + 1 * (y 3).val = (y 3).val
    rw [e6 3, z3]; omega
  · show win0_6.index t (4 : Fin 5) * 24 + 1 * (y 4).val = (y 4).val
    rw [e6 4, z4]; omega

/-- WHAT POINT `t` WRITES BACK to the context array is block `t` of the context array of the arguments. -/
theorem flushed5_eq (c : Dev nD) (t : Fin cfg0.N) :
    (dats m 0 c).flushed 5 t = ((cfg0.win 5).blk t).view.read (Elt Ideal)
      (contextAt (V m c main_arg0) (V m c main_arg1) (V m c main_arg2) (V m c main_arg3) (V m c main_arg4)) := by
  obtain ⟨hb, hq, z2, z3, z4, -, -, -, -, -, -⟩ := idx_facts t
  rw [Cert.KernelIdeal.ValueP.flushed5]
  unfold out0_5
  rw [View.canon_unit_zero hz]
  simp only [View.ld_unit_zero (S := S1x25x8x24x64) hz, View.ld_unit_zero (S := S1x25x8x24x24) hz]
  funext y
  show k0_pay2 (k0_pay3 (iblk m c 2 t)) (k0_pay4 (iblk m c 0 t) (iblk m c 1 t) (iblk m c 4 t) (iblk m c 3 t))
      (k0_pay5 (iblk m c 0 t) (iblk m c 1 t) (iblk m c 4 t) (iblk m c 3 t)) y
    = contextAt (V m c main_arg0) (V m c main_arg1) (V m c main_arg2) (V m c main_arg3) (V m c main_arg4)
        (((cfg0.win 5).blk t).view.emb y)
  refine context_point (iblk m c 0 t) (iblk m c 1 t) (iblk m c 2 t) (iblk m c 3 t) (iblk m c 4 t) (V m c main_arg0)
    (V m c main_arg1) (V m c main_arg2) (V m c main_arg3) (V m c main_arg4)
    ⟨win0_5.index t (0 : Fin 5), hb⟩ ⟨win0_5.index t (1 : Fin 5), hq⟩
    (fun n h => funext fun i => funext fun d => iblk0_apply m c t _ _ rfl rfl n h i d)
    (fun n h => funext fun i => funext fun d => iblk1_apply m c t _ _ rfl rfl n h i d)
    (fun n h => funext fun i => funext fun d => iblk2_apply m c t _ _ rfl rfl n h i d)
    (fun n h => funext fun i => funext fun d => iblk3_apply m c t _ _ rfl rfl n h i d)
    (fun n h => funext fun i => funext fun d => iblk4_apply m c t _ _ rfl rfl n h i d)
    y (((cfg0.win 5).blk t).view.emb y) ?_ ?_ ?_ ?_ ?_
  · show win0_5.index t (0 : Fin 5) * 1 + 1 * (y 0).val = win0_5.index t (0 : Fin 5)
    have hy : (y 0).val < 1 := (y 0).isLt
    omega
  · show win0_5.index t (1 : Fin 5) * 25 + 1 * (y 1).val = win0_5.index t (1 : Fin 5) * 25 + (y 1).val
    omega
  · show win0_5.index t (2 : Fin 5) * 8 + 1 * (y 2).val = (y 2).val
    rw [z2]; omega
  · show win0_5.index t (3 : Fin 5) * 24 + 1 * (y 3).val = (y 3).val
    rw [z3]; omega
  · show win0_5.index t (4 : Fin 5) * 64 + 1 * (y 4).val = (y 4).val
    rw [z4]; omega

/-! ## The blocks cover the arrays -/

/-- An index of the array is in point `t`'s block of window 6 iff each coordinate is in the block's range on its axis. -/
theorem mem_blk6 (t : Fin cfg0.N) (i : S16x325x8x24x24.Idx) :
    i ∈ ((cfg0.win 6).blk t).view.set ↔ ∀ a : Fin 5, win0_6.index t a * S1x25x8x24x24.size a ≤ (i a).val
      ∧ (i a).val < win0_6.index t a * S1x25x8x24x24.size a + S1x25x8x24x24.size a := by
  show i ∈ ((View.whole main_v0_1).slice (win0_6.rect t)).set ↔ _
  rw [View.set_slice_whole, Rect.mem_set_unit]
  exact Iff.rfl

/-- Every index of window 6's array is in some point's block: the point at block position `(i 0, (i 1) / 25)`. -/
theorem cover6 (i : S16x325x8x24x24.Idx) : ∃ t : Fin cfg0.N, (cfg0.win 6).flush t = true ∧ i ∈ ((cfg0.win 6).blk t).view.set := by
  have hi0 : (i 0).val < 16 := (i 0).isLt
  have hi1 : (i 1).val < 325 := (i 1).isLt
  have hi2 : (i 2).val < 8 := (i 2).isLt
  have hi3 : (i 3).val < 24 := (i 3).isLt
  have hi4 : (i 4).val < 24 := (i 4).isLt
  obtain ⟨t, hb, hq⟩ := idx_onto ⟨(i 0).val, hi0⟩ ⟨(i 1).val / 25, by omega⟩
  have hb' : win0_5.index t (0 : Fin 5) = (i 0).val := hb
  have hq' : win0_5.index t (1 : Fin 5) = (i 1).val / 25 := hq
  obtain ⟨-, -, z2, z3, z4, -, -, -, -, -, e6⟩ := idx_facts t
  refine ⟨t, flush0_6 t, ?_⟩
  rw [mem_blk6]
  intro a
  match a with
  | ⟨0, _⟩ =>
    show win0_6.index t (0 : Fin 5) * 1 ≤ (i 0).val ∧ (i 0).val < win0_6.index t (0 : Fin 5) * 1 + 1
    rw [e6 0, hb']; omega
  | ⟨1, _⟩ =>
    show win0_6.index t (1 : Fin 5) * 25 ≤ (i 1).val ∧ (i 1).val < win0_6.index t (1 : Fin 5) * 25 + 25
    rw [e6 1, hq']; omega
  | ⟨2, _⟩ =>
    show win0_6.index t (2 : Fin 5) * 8 ≤ (i 2).val ∧ (i 2).val < win0_6.index t (2 : Fin 5) * 8 + 8
    rw [e6 2, z2]; omega
  | ⟨3, _⟩ =>
    show win0_6.index t (3 : Fin 5) * 24 ≤ (i 3).val ∧ (i 3).val < win0_6.index t (3 : Fin 5) * 24 + 24
    rw [e6 3, z3]; omega
  | ⟨4, _⟩ =>
    show win0_6.index t (4 : Fin 5) * 24 ≤ (i 4).val ∧ (i 4).val < win0_6.index t (4 : Fin 5) * 24 + 24
    rw [e6 4, z4]; omega

/-- An index of the array is in point `t`'s block of window 5 iff each coordinate is in the block's range on its axis. -/
theorem mem_blk5 (t : Fin cfg0.N) (i : S16x325x8x24x64.Idx) :
    i ∈ ((cfg0.win 5).blk t).view.set ↔ ∀ a : Fin 5, win0_5.index t a * S1x25x8x24x64.size a ≤ (i a).val
      ∧ (i a).val < win0_5.index t a * S1x25x8x24x64.size a + S1x25x8x24x64.size a := by
  show i ∈ ((View.whole main_v0_0).slice (win0_5.rect t)).set ↔ _
  rw [View.set_slice_whole, Rect.mem_set_unit]
  exact Iff.rfl

/-- Every index of window 5's array is in some point's block: the point at block position `(i 0, (i 1) / 25)`. -/
theorem cover5 (i : S16x325x8x24x64.Idx) : ∃ t : Fin cfg0.N, (cfg0.win 5).flush t = true ∧ i ∈ ((cfg0.win 5).blk t).view.set := by
  have hi0 : (i 0).val < 16 := (i 0).isLt
  have hi1 : (i 1).val < 325 := (i 1).isLt
  have hi2 : (i 2).val < 8 := (i 2).isLt
  have hi3 : (i 3).val < 24 := (i 3).isLt
  have hi4 : (i 4).val < 64 := (i 4).isLt
  obtain ⟨t, hb, hq⟩ := idx_onto ⟨(i 0).val, hi0⟩ ⟨(i 1).val / 25, by omega⟩
  have hb' : win0_5.index t (0 : Fin 5) = (i 0).val := hb
  have hq' : win0_5.index t (1 : Fin 5) = (i 1).val / 25 := hq
  obtain ⟨-, -, z2, z3, z4, -, -, -, -, -, e6⟩ := idx_facts t
  refine ⟨t, flush0_5 t, ?_⟩
  rw [mem_blk5]
  intro a
  match a with
  | ⟨0, _⟩ =>
    show win0_5.index t (0 : Fin 5) * 1 ≤ (i 0).val ∧ (i 0).val < win0_5.index t (0 : Fin 5) * 1 + 1
    rw [hb']; omega
  | ⟨1, _⟩ =>
    show win0_5.index t (1 : Fin 5) * 25 ≤ (i 1).val ∧ (i 1).val < win0_5.index t (1 : Fin 5) * 25 + 25
    rw [hq']; omega
  | ⟨2, _⟩ =>
    show win0_5.index t (2 : Fin 5) * 8 ≤ (i 2).val ∧ (i 2).val < win0_5.index t (2 : Fin 5) * 8 + 8
    rw [z2]; omega
  | ⟨3, _⟩ =>
    show win0_5.index t (3 : Fin 5) * 24 ≤ (i 3).val ∧ (i 3).val < win0_5.index t (3 : Fin 5) * 24 + 24
    rw [z3]; omega
  | ⟨4, _⟩ =>
    show win0_5.index t (4 : Fin 5) * 64 ≤ (i 4).val ∧ (i 4).val < win0_5.index t (4 : Fin 5) * 64 + 64
    rw [z4]; omega

/-! ## The two result arrays after the run -/

/-- The score array after the run is the score array of the arguments. -/
theorem final6 (c : Dev nD) : (dats m 0 c).arrAt 6 cfg0.N
    = scoresAt (V m c main_arg0) (V m c main_arg1) (V m c main_arg3) (V m c main_arg4) :=
  (dats m 0 c).arrAt_eq_of_cover 6 _ (fun t _ => flushed6_eq m c t) cover6

/-- The context array after the run is the context array of the arguments. -/
theorem final5 (c : Dev nD) : (dats m 0 c).arrAt 5 cfg0.N
    = contextAt (V m c main_arg0) (V m c main_arg1) (V m c main_arg2) (V m c main_arg3) (V m c main_arg4) :=
  (dats m 0 c).arrAt_eq_of_cover 5 _ (fun t _ => flushed5_eq m c t) cover5

/-- The kernel's run, read: every weakly fair execution ends with the two result arrays at the context array and the
    score array of the argument arrays, and the arguments unchanged. -/
theorem run : θ_run defs (onTc (τ := τ) (main (F := Ideal))) ⟨m, fun _ => 0, ρ⟩ fun r => ∀ c : Dev nD,
      r.2.mem ((c : Thread nD τ).loc main_v0_0)
        = contextAt (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_1)
        = scoresAt (m ((c : Thread nD τ).loc main_arg0)) (m ((c : Thread nD τ).loc main_arg1))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.ValueP.run_blocks m ρ)

end Cert.Attn.Blocks

end
-- ==== Proof.lean ====
/-
  Scaled dot-product attention whose softmax runs over the QUERY index, on arrays of shape
  [16, 325, 8, 24, 64] (queries, keys, values) and [16, 325, 8, 24, 24] (mask, residual): the kernel against
  its reference, equal as extended reals.

  Both programs compute, for each of the 16 * 325 * 8 heads, the 24 by 24 score matrix
  s(i, j) = <q_i, k_j> / 8 + r(i, j), replaced by -1e9 where the mask entry exceeds 1/2; then for each COLUMN j
  the maximum over i, the exponentials of the differences, their sum over i, the quotients; and the 24 by 64
  context, row i of the quotients applied to the value matrix. They return the context array and the score array.

  The kernel does this block by block: a grid of 16 by 13 points, each holding 25 consecutive positions of the
  second axis, whose 25 * 8 heads it folds into one batch axis of 200, with both products taken into a zero
  accumulator and the operands rounded on the way in. The reference does it on the whole arrays at once, with one
  more maximum against minus infinity. On the extended reals a rounding is the identity, a zero accumulator adds
  nothing, the maximum with the fold's own starting value changes nothing, and the sums are the same sums; so no
  property of the inputs is used, and the precondition is never opened.

  Modules: Spec (one head, and the two arrays head by head), RefRead (the reference's two results are those
  arrays), BodyScore and BodyContext (the kernel body's two stored blocks, read at an index, are the scores and
  the contexts of the block's heads), Blocks (the 208 blocks cover the arrays, so the kernel's two results are
  those arrays too). The idealization rewrote nothing, so `preserves` is trivial.
-/
import proofs.«172661_j17145509446375_2_alg».proof.Defs
import proofs.«172661_j17145509446375_2_alg».proof.Proof.Gen.Kernel
import proofs.«172661_j17145509446375_2_alg».proof.Proof.Gen.Kernel.Skeleton
import proofs.«172661_j17145509446375_2_alg».proof.Proof.Gen.Kernel.Launch
import proofs.«172661_j17145509446375_2_alg».proof.Proof.Gen.Kernel.Points
import proofs.«172661_j17145509446375_2_alg».proof.Proof.Gen.Kernel.Frame
import proofs.«172661_j17145509446375_2_alg».proof.Proof.Gen.KernelIdeal
import proofs.«172661_j17145509446375_2_alg».proof.Proof.Gen.KernelIdeal.Skeleton
import proofs.«172661_j17145509446375_2_alg».proof.Proof.Gen.KernelIdeal.Launch
import proofs.«172661_j17145509446375_2_alg».proof.Proof.Gen.KernelIdeal.Points
import proofs.«172661_j17145509446375_2_alg».proof.Proof.Gen.KernelIdeal.Frame
import proofs.«172661_j17145509446375_2_alg».proof.Proof.Gen.ReferenceIdeal
import proofs.«172661_j17145509446375_2_alg».proof.Proof.Gen.Pre_finite_inputs
import proofs.«172661_j17145509446375_2_alg».proof.Proof.Gen.ReferenceIdeal.Run
import proofs.«172661_j17145509446375_2_alg».proof.Proof.Gen.ReferenceIdeal.Read
import proofs.«172661_j17145509446375_2_alg».proof.Proof.RefRead
import proofs.«172661_j17145509446375_2_alg».proof.Proof.Blocks
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the context array and the score array of
    those arguments: the kernel block by block, the reference stage by stage. -/
theorem algebraic : Cert.algebraic_KernelIdeal_ReferenceIdeal := by
  intro m ρ m' ρ' _ hagree
  refine ⟨_, _, Cert.Attn.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.Attn.Ref.ref_context, (hagree c).1, (hagree c).2.1,
      (hagree c).2.2.1, (hagree c).2.2.2.1, (hagree c).2.2.2.2]
  · rw [(h c).2.1, Cert.ReferenceIdeal.Read.val_main_v6_eq, Cert.Attn.Ref.ref_scores, (hagree c).1, (hagree c).2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
